-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : FVec F S512x256 .f32) (main_arg2 : FVec F S512x1 .f32) (main_arg3 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S256x1 : Shape := ⟨2, ![256, 1]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1x8192 : Shape := ⟨2, ![1, 8192]⟩
abbrev S2048x512 : Shape := ⟨2, ![2048, 512]⟩
abbrev S2048x1 : Shape := ⟨2, ![2048, 1]⟩
abbrev S1x512 : Shape := ⟨2, ![1, 512]⟩
abbrev S2048x256 : Shape := ⟨2, ![2048, 256]⟩

abbrev nBuf : Space → Nat
  | .hbm => 11
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S256x1, .f32⟩
  | .hbm, ⟨5, _⟩ => ⟨S256x1, .f32⟩
  | .hbm, ⟨6, _⟩ => ⟨S8192x256, .bf16⟩
  | .hbm, ⟨7, _⟩ => ⟨S8192x1, .bf16⟩
  | .hbm, ⟨8, _⟩ => ⟨S8192x1, .bf16⟩
  | .hbm, ⟨9, _⟩ => ⟨S1x8192, .bf16⟩
  | .hbm, ⟨10, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S1024x256, .bf16⟩
  | .local _ .vmem, ⟨6, _⟩ => ⟨S1024x256, .bf16⟩
  | .local _ .vmem, ⟨7, _⟩ => ⟨S1024x1, .bf16⟩
  | .local _ .vmem, ⟨8, _⟩ => ⟨S1024x1, .bf16⟩
  | .local _ .vmem, ⟨9, _⟩ => ⟨S1024x1, .bf16⟩
  | .local _ .vmem, ⟨10, _⟩ => ⟨S1024x1, .bf16⟩
  | .local _ .vmem, ⟨11, _⟩ => ⟨S2048x512, .i32⟩
  | .local _ .vmem, ⟨12, _⟩ => ⟨S2048x512, .i32⟩
  | .local _ .vmem, ⟨13, _⟩ => ⟨S2048x1, .bf16⟩
  | .local _ .vmem, ⟨14, _⟩ => ⟨S2048x1, .bf16⟩
  | .local _ .vmem, ⟨15, _⟩ => ⟨S1x512, .bf16⟩
  | .local _ .vmem, ⟨16, _⟩ => ⟨S1x512, .bf16⟩
  | .local _ .vmem, ⟨17, _⟩ => ⟨S512x256, .bf16⟩
  | .local _ .vmem, ⟨18, _⟩ => ⟨S512x256, .bf16⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_20 : BitVec 32 := 0#32
  let v37 : BitVec 1 := Scalar.cmpi .ne v36 c0_i32_20
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1024x1_S1024x1_0_0 : ∀ a, (![0, 0] : Fin 2 → Nat) a + S1024x1.size a ≤ S1024x1.size a
  h_S1024x1 : 0 < S1024x1.numel
  packedbf16_S1024x1_S1024x1_0_0 : (Rect.unit (s := S1024x1) ![0, 0] S1024x1.size inb_S1024x1_S1024x1_0_0).PackedRows (EltTy.packing .bf16)
  shapeCasts_S8192x1_S1x8192 : S8192x1.ShapeCasts S1x8192
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  shapeCasts_S512x256_S512x256 : S512x256.ShapeCasts S512x256
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .bf16 = 32 ∨ (Rect.block (s := S8192x1) S1024x1.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .bf16 = 32 ∨ (Rect.block (s := S8192x1) S1024x1.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x8192.size a
  hwx1_0 : ∀ i : grid1.Coords, EltTy.bits .i32 = 32 ∨ (Rect.block (s := S8192x8192) S2048x512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .bf16 = 32 ∨ (Rect.block (s := S8192x1) S2048x1.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .bf16 = 32 ∨ (Rect.block (s := S1x8192) S1x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .bf16 = 32 ∨ (Rect.block (s := S8192x256) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x256.size a
  hwx1_4 : ∀ i : grid1.Coords, EltTy.bits .f32 = 32 ∨ (Rect.block (s := S8192x256) S2048x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S8192x256, .f32⟩
  | .hbm, ⟨5, _⟩ => ⟨S256x1, .f32⟩
  | .hbm, ⟨6, _⟩ => ⟨S256x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Region0.lean ====
/-
  The first kernel call of the program, on its grid of 8 points: from a block of 1024 rows of the features \`x\` and
  the whole of \`W\`, \`a₁\`, \`a₂\` it stores the block's hidden features \`h = x · W\` and the two score columns
  \`h · a₁\`, \`h · a₂\`.

  Everything is stated at a parameter \`V\`: the contents of the core's buffers when the call is entered.

  * \`blockAt\` — a window's block at a grid point, read off its array as the call finds it.
  * \`hidOut\`, \`srcOut\`, \`dstOut\` — what the body leaves in the three output buffers, as functions of the four input
    blocks: each buffer is written by one store over its whole extent.
  * \`kernel_triple\` — the body, run on whole buffers holding the input blocks, returns with the inputs unchanged and
    the outputs at these three values; what the outputs held before is read once and never used.
  * \`dat0\` — the proof data of the call: the arrays as found, each input buffer at its block and each output buffer
    at its value after the body, full shares, nothing owed.
  * \`body_obligation0\` — the body meets the pipeline's obligation at every grid point.
-/
import proofs.«164384_j57698590654935_2_alg».proof.Proof.Gen.KernelIdeal.Launch
import proofs.«164384_j57698590654935_2_alg».proof.Proof.Gen.KernelIdeal.Skeleton
import proofs.«164384_j57698590654935_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows is decided coordinate by coordinate
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window \`w\`'s block at grid point \`t\`: the rectangle of its array that the point's block index selects. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block of \`x\` whenever the body is called: a point that does
    not fetch has the block index of the point before it, and the body leaves the buffer as it found it. -/
theorem staged_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the weights \`W\`, whose one block is the whole array, fetched at the first point only. -/
theorem staged_W_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The same for the source half \`a₁\` of the attention vector. -/
theorem staged_a1_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The same for the destination half \`a₂\`. -/
theorem staged_a2_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes: each is its buffer's whole extent -/

abbrev all_x : Rect S1024x512 := Rect.unit (s := S1024x512) ![0, 0] S1024x512.size inb_S1024x512_S1024x512_0_0
abbrev all_W : Rect S512x256 := Rect.unit (s := S512x256) ![0, 0] S512x256.size inb_S512x256_S512x256_0_0
abbrev all_a : Rect S256x1 := Rect.unit (s := S256x1) ![0, 0] S256x1.size inb_S256x1_S256x1_0_0
abbrev all_h : Rect S1024x256 := Rect.unit (s := S1024x256) ![0, 0] S1024x256.size inb_S1024x256_S1024x256_0_0
abbrev all_s : Rect S1024x1 := Rect.unit (s := S1024x1) ![0, 0] S1024x1.size inb_S1024x1_S1024x1_0_0

/-! ## What the body leaves in each output buffer -/

/-- The hidden-feature buffer after the body: one store of \`x · W\` (rounded to the storage type) over the whole buffer. -/
def hidOut (x0 : Vec F S1024x512 .f32) (x1 : Vec F S512x256 .f32) (x2 : Vec F S256x1 .f32) (x3 : Vec F S256x1 .f32) : Vec F S1024x256 .bf16 :=
  View.canon [⟨all_h, k0_pay1 (View.ld x0 all_x) (View.ld x1 all_W)⟩]

/-- One store over all 1024 × 256 entries covers every entry. -/
theorem hidOut_cover (p0 : Vec F S1024x256 .bf16) (y : S1024x256.Idx) :
    ∃ pc ∈ ([⟨all_h, p0⟩] : List (View.Piece (Elt F) S1024x256 .bf16)), y ∈ pc.1.set :=
  View.cover_of_tiled [⟨all_h, p0⟩] S1024x256.size (by rfl) y

/-- The source-score buffer after the body: one store of \`(x · W) · a₁\` over the whole column. -/
def srcOut (x0 : Vec F S1024x512 .f32) (x1 : Vec F S512x256 .f32) (x2 : Vec F S256x1 .f32) (x3 : Vec F S256x1 .f32) : Vec F S1024x1 .bf16 :=
  View.canon [⟨all_s, k0_pay2 (View.ld x0 all_x) (View.ld x1 all_W) (View.ld x2 all_a)⟩]

/-- The destination-score buffer after the body: one store of \`(x · W) · a₂\` over the whole column. -/
def dstOut (x0 : Vec F S1024x512 .f32) (x1 : Vec F S512x256 .f32) (x2 : Vec F S256x1 .f32) (x3 : Vec F S256x1 .f32) : Vec F S1024x1 .bf16 :=
  View.canon [⟨all_s, k0_pay3 (View.ld x0 all_x) (View.ld x1 all_W) (View.ld x3 all_a)⟩]

/-- One store over all 1024 entries of a column covers every entry. -/
theorem col_cover (p0 : Vec F S1024x1 .bf16) (y : S1024x1.Idx) :
    ∃ pc ∈ ([⟨all_s, p0⟩] : List (View.Piece (Elt F) S1024x1 .bf16)), y ∈ pc.1.set :=
  View.cover_of_tiled [⟨all_s, p0⟩] S1024x1.size (by rfl) y

/-! ## The body's triple -/

set_option maxHeartbeats 1000000 in
/-- The body on whole buffers — the four inputs' at contents \`x0 … x3\`, the three outputs' at anything — returns with
    the inputs' as they were and the outputs' at \`hidOut\`, \`srcOut\`, \`dstOut\` of the inputs. Each output buffer is read
    once before its store; the value read reaches no store. -/
theorem kernel_triple (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .bf16) (harg6 : arg6.IsWhole)
    (arg7 : Memref sig .tc .vmem S1024x1 .bf16) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hidOut x0 x1 x2 x3) ∗ owns (c : Thread nD τ) arg6 fullShare (srcOut x0 x1 x2 x3) ∗ owns (c : Thread nD τ) arg7 fullShare (dstOut x0 x1 x2 x3)) -∗ K ⟨⟩))
      ⊢ wp frame (wpE (defs₀ (F := F)) Variants.none c none) E (cc0__h_kernel i arg1 harg1 arg2 harg2 arg3 harg3 arg4 harg4 arg5 harg5 arg6 harg6 arg7 harg7) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hidOut_cover _)
  isplitl [H5]
  · iexists _; isplitr
    swap; · iexact H5
    ipureintro
    exact View.read_writes_eq_canon _ _ _ (col_cover _)
  iexists _; isplitr
  swap; · iexact H6
  ipureintro
  exact View.read_writes_eq_canon _ _ _ (col_cover _)

/-! ## The call's proof data -/

/-- The proof data of the call on core \`c\`: the arrays as the call finds them; after the body at point \`t\` each input
    buffer at its block and each output buffer at its value from the input blocks; the invariant that of a body which
    touches only its staging buffers; full shares; nothing owed. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => hidOut (blockAt V c 0 t) (blockAt V c 1 t) (blockAt V c 2 t) (blockAt V c 3 t)
    | ⟨5, _⟩ => srcOut (blockAt V c 0 t) (blockAt V c 1 t) (blockAt V c 2 t) (blockAt V c 3 t)
    | ⟨6, _⟩ => dstOut (blockAt V c 0 t) (blockAt V c 1 t) (blockAt V c 2 t) (blockAt V c 3 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blockAt V c 0 t := by dsimp only [dat0]
theorem after0_1 (c : Dev nD) (t : Fin cfg0.N) : (dat0 V c).after 1 t = blockAt V c 1 t := by dsimp only [dat0]
theorem after0_2 (c : Dev nD) (t : Fin cfg0.N) : (dat0 V c).after 2 t = blockAt V c 2 t := by dsimp only [dat0]
theorem after0_3 (c : Dev nD) (t : Fin cfg0.N) : (dat0 V c).after 3 t = blockAt V c 3 t := by dsimp only [dat0]
theorem after0_4 (c : Dev nD) (t : Fin cfg0.N) : (dat0 V c).after 4 t = hidOut (blockAt V c 0 t) (blockAt V c 1 t) (blockAt V c 2 t) (blockAt V c 3 t) := by dsimp only [dat0]
theorem after0_5 (c : Dev nD) (t : Fin cfg0.N) : (dat0 V c).after 5 t = srcOut (blockAt V c 0 t) (blockAt V c 1 t) (blockAt V c 2 t) (blockAt V c 3 t) := by dsimp only [dat0]
theorem after0_6 (c : Dev nD) (t : Fin cfg0.N) : (dat0 V c).after 6 t = dstOut (blockAt V c 0 t) (blockAt V c 1 t) (blockAt V c 2 t) (blockAt V c 3 t) := by dsimp only [dat0]

/-- Each input's staging buffer holds its block at every point. -/
theorem staged_x (c : Dev nD) (t : Fin cfg0.N) (d) : (dat0 V c).before 0 t d = blockAt V c 0 t :=
  staged_x_of V (dat0 V c) (A_eq0 V c 0) (after0_0 V c) t d
theorem staged_W (c : Dev nD) (t : Fin cfg0.N) (d) : (dat0 V c).before 1 t d = blockAt V c 1 t :=
  staged_W_of V (dat0 V c) (A_eq0 V c 1) (after0_1 V c) t d
theorem staged_a1 (c : Dev nD) (t : Fin cfg0.N) (d) : (dat0 V c).before 2 t d = blockAt V c 2 t :=
  staged_a1_of V (dat0 V c) (A_eq0 V c 2) (after0_2 V c) t d
theorem staged_a2 (c : Dev nD) (t : Fin cfg0.N) (d) : (dat0 V c).before 3 t d = blockAt V c 3 t :=
  staged_a2_of V (dat0 V c) (A_eq0 V c 3) (after0_3 V c) t d

/-! ## The body obligation -/

/-- What the body is called with at point \`t\`: the invariant, the core's debts, and each window's current staging
    buffer at what the pipeline left in it, -/
def callPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at the proof data's value after the body. -/
def callPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the body's triple applies; the invariant and the
    core's debts pass through unread. -/
theorem body_triple (c : Dev nD) (t : Fin cfg0.N) :
    callPre V c t ⊢ wp frame (wpE (defs₀ (F := F)) Variants.none c none) Set.univ (bodyAt0 t) (fun _ => callPost V c t) := by
  unfold callPre callPost bodyAt0
  simp only [staged_x, staged_W, staged_a1, staged_a2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple c Set.univ _ _ _ _ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact body_triple V c t

end Cert.KernelIdeal.R0

end
-- ==== Proof.Region1Base.lean ====
/-
  The second kernel region (the aggregation): what its three control cases share.

  The grid is 4 × 16: point `t = 16·i + j` handles rows `2048·i …` against the `j`-th block of 512 columns.  The body
  clears its scratch accumulator when `j = 0`, adds the block's two matrix products to it at every point, and copies it
  to the output block when `j = 15`; at the other points the output block is left alone and not written back.
  Here: the two conditions decided over the grid in closed form, where the output window is idle and where it is
  written back, the staging memrefs a point is called with, the scratch as a view, and the region's entry invariant with
  the scratch buffer spelt out.
-/
import proofs.«164384_j57698590654935_2_alg».proof.Proof.Gen.KernelIdeal.Launch
import proofs.«164384_j57698590654935_2_alg».proof.Proof.Gen.KernelIdeal.Skeleton
import proofs.«164384_j57698590654935_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data over these arrays that leaves input blocks in place. -/
theorem before_in_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- "This is the first block of columns": the accumulator is cleared. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- "This is the last block of columns": the accumulator is copied out. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
/-- Away from the last block of columns the output window is idle and is not written back. -/
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
theorem live_out : ∀ t : Fin cfg1.N, isLast (grid1.coords t) → cfg1.idle 4 (grid1.coords t) = false := by decide +kernel

/-! ## The memrefs a point is called with -/

abbrev m0 (t : Fin cfg1.N) : Memref sig .tc .vmem S2048x512 .i32 := win1_0.stage (cfg1.slots t 0)
abbrev h0 (t : Fin cfg1.N) : (m0 t).IsWhole := hstage1_0 ((cfg1.slots t 0).cast nbuf1_0)
abbrev m1 (t : Fin cfg1.N) : Memref sig .tc .vmem S2048x1 .bf16 := win1_1.stage (cfg1.slots t 1)
abbrev h1 (t : Fin cfg1.N) : (m1 t).IsWhole := hstage1_1 ((cfg1.slots t 1).cast nbuf1_1)
abbrev m2 (t : Fin cfg1.N) : Memref sig .tc .vmem S1x512 .bf16 := win1_2.stage (cfg1.slots t 2)
abbrev h2 (t : Fin cfg1.N) : (m2 t).IsWhole := hstage1_2 ((cfg1.slots t 2).cast nbuf1_2)
abbrev m3 (t : Fin cfg1.N) : Memref sig .tc .vmem S512x256 .bf16 := win1_3.stage (cfg1.slots t 3)
abbrev h3 (t : Fin cfg1.N) : (m3 t).IsWhole := hstage1_3 ((cfg1.slots t 3).cast nbuf1_3)
abbrev m4 (t : Fin cfg1.N) : Memref sig .tc .vmem S2048x256 .f32 := win1_4.stage (cfg1.slots t 4)
abbrev h4 (t : Fin cfg1.N) : (m4 t).IsWhole := hstage1_4 ((cfg1.slots t 4).cast nbuf1_4)
/-- The scratch accumulator: a whole scoped buffer of the kernel's own. -/
abbrev accM : Memref sig .tc .vmem S2048x256 .f32 := Memref.whole cc1_scratch0
/-- The accumulator and one output staging buffer as views, through which their contents are stated. -/
abbrev accV : View sig .tc .vmem S2048x256 .f32 := accM.view
abbrev outV : View sig .tc .vmem S2048x256 .f32 := (Memref.whole cc1_stg4_0 : Memref sig .tc .vmem S2048x256 .f32).view

/-- The invariant the region is entered with — every scoped buffer that is no staging buffer of this region at some
    contents, and the generator register at some state — regrouped as: the accumulator at some contents, the other such
    buffers, the register. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.KernelIdeal.R1

end
-- ==== Proof.Region1RunFirst.lean ====
/-
  The aggregation body run once, at a point of the first block of columns (the accumulator is cleared, then added to; nothing is copied out).
  The run is symbolic: on whole staging memrefs holding the four input blocks, the output block's buffer at any contents
  (handed back untouched: the body does not store into it here) and the accumulator at anything, the
  body runs to its end with the inputs as they were and with the stores it made into the accumulator recorded as a list
  of pieces (last store first).
-/
import proofs.«164384_j57698590654935_2_alg».proof.Proof.Region1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of the first block of columns (the accumulator is cleared, then added to; nothing is copied out), with the proof that the body runs to its end leaving them. -/
noncomputable def runFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i)
    (x0 : Vec F S2048x512 .i32) (x1 : Vec F S2048x1 .bf16) (x2 : Vec F S1x512 .bf16) (x3 : Vec F S512x256 .bf16) :
    Σ' (L4 : List (View.Piece (Elt F) S2048x256 .f32)), { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨[], ?_, fun xi E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.R1

end
-- ==== Proof.Region1RunInner.lean ====
/-
  The aggregation body run once, at a point of an inner block of columns (the accumulator is added to; nothing is copied out).
  The run is symbolic: on whole staging memrefs holding the four input blocks, the output block's buffer at any contents
  (handed back untouched: the body does not store into it here) and the accumulator at the contents the point before left, the
  body runs to its end with the inputs as they were and with the stores it made into the accumulator recorded as a list
  of pieces (last store first).
-/
import proofs.«164384_j57698590654935_2_alg».proof.Proof.Region1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of an inner block of columns (the accumulator is added to; nothing is copied out), with the proof that the body runs to its end leaving them. -/
noncomputable def runInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i)
    (x0 : Vec F S2048x512 .i32) (x1 : Vec F S2048x1 .bf16) (x2 : Vec F S1x512 .bf16) (x3 : Vec F S512x256 .bf16) (xs : Vec F S2048x256 .f32) :
    Σ' (L4 : List (View.Piece (Elt F) S2048x256 .f32)), { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨[], ?_, fun xi E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.R1

end
-- ==== Proof.Region1RunLast.lean ====
/-
  The aggregation body run once, at a point of the last block of columns (the accumulator is added to, then copied to the output block).
  The run is symbolic: on whole staging memrefs holding the four input blocks, the output block's buffer at anything and
  the accumulator at the contents the point before left, the body runs to its end with the inputs as they were and with
  the stores it made into the output buffer and into the accumulator recorded as lists of pieces (last store first).
-/
import proofs.«164384_j57698590654935_2_alg».proof.Proof.Region1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of the last block of columns (the accumulator is added to, then copied to the output block), with the proof that the body runs to its end leaving them. -/
noncomputable def runLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i)
    (x0 : Vec F S2048x512 .i32) (x1 : Vec F S2048x1 .bf16) (x2 : Vec F S1x512 .bf16) (x3 : Vec F S512x256 .bf16) (xs : Vec F S2048x256 .f32) :
    Σ' (L4 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.R1

end
-- ==== Proof.Region1.lean ====
/-
  The second kernel region (the aggregation): its proof data and its body obligation.

  From the three symbolic runs of the body: what the accumulator and the output block's buffer hold after each grid point,
  by recursion on the point (the accumulator is carried from point to point; the output's buffer is stored only at the
  last block of columns of each block of rows); the region's invariant (the accumulator at that recursion's value); the
  proof data; and the obligation that the body, called at any point on what the pipeline hands it, returns what the
  proof data say.
-/
import proofs.«164384_j57698590654935_2_alg».proof.Proof.Region1RunFirst
import proofs.«164384_j57698590654935_2_alg».proof.Proof.Region1RunInner
import proofs.«164384_j57698590654935_2_alg».proof.Proof.Region1RunLast

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's pieces at a first block tile it, so they cover it. -/
theorem accCoverFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) (y : S2048x256.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S2048x256.size (by sl_kernel_rfl) y

/-- What the accumulator holds afterwards: its pieces read back. -/
def accFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) : Vec F S2048x256 .f32 :=
  accV.read (Elt F) (accV.writes (Elt F) accV.junk (runFirst c i arg2 harg2 arg3 harg3 arg4 harg4 arg5 harg5 arg6 harg6 arg7 harg7 hc0 hc1 x0 x1 x2 x3).2.1)

/-- What the output block's buffer holds afterwards: its pieces read back (none here: a placeholder nothing consults, the window being idle and not written back). -/
def outFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) : Vec F S2048x256 .f32 :=
  outV.read (Elt F) (outV.writes (Elt F) outV.junk (runFirst c i arg2 harg2 arg3 harg3 arg4 harg4 arg5 harg5 arg6 harg6 arg7 harg7 hc0 hc1 x0 x1 x2 x3).1)

/-- The accumulator's pieces at an inner block tile it, so they cover it. -/
theorem accCoverInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runInner c i arg2 harg2 arg3 harg3 arg4 harg4 arg5 harg5 arg6 harg6 arg7 harg7 hc0 hc1 x0 x1 x2 x3 xs).2.1, y ∈ pc.1.set :=
  View.cover_of_tiledL (runInner c i arg2 harg2 arg3 harg3 arg4 harg4 arg5 harg5 arg6 harg6 arg7 harg7 hc0 hc1 x0 x1 x2 x3 xs).2.1 S2048x256.size (by sl_kernel_rfl) y

/-- What the accumulator holds afterwards: its pieces read back. -/
def accInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) : Vec F S2048x256 .f32 :=
  accV.read (Elt F) (accV.writes (Elt F) accV.junk (runInner c i arg2 harg2 arg3 harg3 arg4 harg4 arg5 harg5 arg6 harg6 arg7 harg7 hc0 hc1 x0 x1 x2 x3 xs).2.1)

/-- What the output block's buffer holds afterwards: its pieces read back (none here: a placeholder nothing consults, the window being idle and not written back). -/
def outInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) : Vec F S2048x256 .f32 :=
  outV.read (Elt F) (outV.writes (Elt F) outV.junk (runInner c i arg2 harg2 arg3 harg3 arg4 harg4 arg5 harg5 arg6 harg6 arg7 harg7 hc0 hc1 x0 x1 x2 x3 xs).1)

/-- The accumulator's pieces at a last block tile it, so they cover it. -/
theorem accCoverLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S2048x256.size (by sl_kernel_rfl) y

/-- What the accumulator holds afterwards: its pieces read back. -/
def accLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) : Vec F S2048x256 .f32 :=
  accV.read (Elt F) (accV.writes (Elt F) accV.junk (runLast c i arg2 harg2 arg3 harg3 arg4 harg4 arg5 harg5 arg6 harg6 arg7 harg7 hc0 hc1 x0 x1 x2 x3 xs).2.1)

/-- What the output block's buffer holds afterwards: its pieces read back. -/
def outLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) : Vec F S2048x256 .f32 :=
  outV.read (Elt F) (outV.writes (Elt F) outV.junk (runLast c i arg2 harg2 arg3 harg3 arg4 harg4 arg5 harg5 arg6 harg6 arg7 harg7 hc0 hc1 x0 x1 x2 x3 xs).1)

/-- At a last block the output's pieces tile its block, so they cover it. -/
theorem outCoverLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S2048x256.size (by sl_kernel_rfl) y

/-! ## What the output block's buffer and the accumulator hold after each point -/

/-- THE ACCUMULATION: the pair (output block's buffer, accumulator) after the body at position `n`: the case the
    closed forms select, run at the point's memrefs and input blocks, the accumulator entering at what position `n − 1`
    left (it is a scoped buffer nothing else touches). -/
def stateAt (c : Dev nD) : (n : ℕ) → n < cfg1.N → Vec F S2048x256 .f32 × Vec F S2048x256 .f32
  | 0, hn => (outFirst c (grid1.coords ⟨0, hn⟩) (m0 ⟨0, hn⟩) (h0 ⟨0, hn⟩) (m1 ⟨0, hn⟩) (h1 ⟨0, hn⟩) (m2 ⟨0, hn⟩) (h2 ⟨0, hn⟩) (m3 ⟨0, hn⟩) (h3 ⟨0, hn⟩) (m4 ⟨0, hn⟩) (h4 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩), accFirst c (grid1.coords ⟨0, hn⟩) (m0 ⟨0, hn⟩) (h0 ⟨0, hn⟩) (m1 ⟨0, hn⟩) (h1 ⟨0, hn⟩) (m2 ⟨0, hn⟩) (h2 ⟨0, hn⟩) (m3 ⟨0, hn⟩) (h3 ⟨0, hn⟩) (m4 ⟨0, hn⟩) (h4 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩))
  | n + 1, hn =>
    if e0 : (n + 1) % 16 = 0 then
      if e1 : (n + 1) % 16 = 15 then False.elim (by omega)
      else (outFirst c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) ((isFirst_iff ⟨n + 1, hn⟩).mpr e0) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩), accFirst c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) ((isFirst_iff ⟨n + 1, hn⟩).mpr e0) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩))
    else
      if e1 : (n + 1) % 16 = 15 then (outLast c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) ((isLast_iff ⟨n + 1, hn⟩).mpr e1) (blk V c 0 ⟨n + 1, hn⟩) (blk V c 1 ⟨n + 1, hn⟩) (blk V c 2 ⟨n + 1, hn⟩) (blk V c 3 ⟨n + 1, hn⟩) (stateAt c n (Nat.lt_of_succ_lt hn)).2, accLast c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) ((isLast_iff ⟨n + 1, hn⟩).mpr e1) (blk V c 0 ⟨n + 1, hn⟩) (blk V c 1 ⟨n + 1, hn⟩) (blk V c 2 ⟨n + 1, hn⟩) (blk V c 3 ⟨n + 1, hn⟩) (stateAt c n (Nat.lt_of_succ_lt hn)).2)
      else (outInner c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩) (stateAt c n (Nat.lt_of_succ_lt hn)).2, accInner c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩) (stateAt c n (Nat.lt_of_succ_lt hn)).2)

theorem stateAt_first (c : Dev nD) (t : Fin cfg1.N) (e0 : t.val % 16 = 0) (e1 : ¬t.val % 16 = 15) :
    stateAt V c t.val t.isLt = (outFirst c (grid1.coords t) (m0 t) (h0 t) (m1 t) (h1 t) (m2 t) (h2 t) (m3 t) (h3 t) (m4 t) (h4 t) accM (Memref.isWhole_whole _) ((isFirst_iff t).mpr e0) (fun h => e1 ((isLast_iff t).mp h)) (blk V c 0 t) (blk V c 1 t) (blk V c 2 t) (blk V c 3 t), accFirst c (grid1.coords t) (m0 t) (h0 t) (m1 t) (h1 t) (m2 t) (h2 t) (m3 t) (h3 t) (m4 t) (h4 t) accM (Memref.isWhole_whole _) ((isFirst_iff t).mpr e0) (fun h => e1 ((isLast_iff t).mp h)) (blk V c 0 t) (blk V c 1 t) (blk V c 2 t) (blk V c 3 t)) := by
  obtain ⟨n, hn⟩ := t
  cases n with
  | zero => exact rfl
  | succ n => exact (dif_pos e0).trans ((dif_neg e1).trans rfl)

theorem stateAt_inner (c : Dev nD) (t : Fin cfg1.N) (e0 : ¬t.val % 16 = 0) (e1 : ¬t.val % 16 = 15) :
    stateAt V c t.val t.isLt = (outInner c (grid1.coords t) (m0 t) (h0 t) (m1 t) (h1 t) (m2 t) (h2 t) (m3 t) (h3 t) (m4 t) (h4 t) accM (Memref.isWhole_whole _) (fun h => e0 ((isFirst_iff t).mp h)) (fun h => e1 ((isLast_iff t).mp h)) (blk V c 0 t) (blk V c 1 t) (blk V c 2 t) (blk V c 3 t) (stateAt V c (t.val - 1) (Nat.lt_of_le_of_lt (Nat.sub_le _ _) t.isLt)).2, accInner c (grid1.coords t) (m0 t) (h0 t) (m1 t) (h1 t) (m2 t) (h2 t) (m3 t) (h3 t) (m4 t) (h4 t) accM (Memref.isWhole_whole _) (fun h => e0 ((isFirst_iff t).mp h)) (fun h => e1 ((isLast_iff t).mp h)) (blk V c 0 t) (blk V c 1 t) (blk V c 2 t) (blk V c 3 t) (stateAt V c (t.val - 1) (Nat.lt_of_le_of_lt (Nat.sub_le _ _) t.isLt)).2) := by
  obtain ⟨n, hn⟩ := t
  cases n with
  | zero => exact absurd (Nat.zero_mod _) e0
  | succ n => exact (dif_neg e0).trans ((dif_neg e1).trans rfl)

theorem stateAt_last (c : Dev nD) (t : Fin cfg1.N) (e0 : ¬t.val % 16 = 0) (e1 : t.val % 16 = 15) :
    stateAt V c t.val t.isLt = (outLast c (grid1.coords t) (m0 t) (h0 t) (m1 t) (h1 t) (m2 t) (h2 t) (m3 t) (h3 t) (m4 t) (h4 t) accM (Memref.isWhole_whole _) (fun h => e0 ((isFirst_iff t).mp h)) ((isLast_iff t).mpr e1) (blk V c 0 t) (blk V c 1 t) (blk V c 2 t) (blk V c 3 t) (stateAt V c (t.val - 1) (Nat.lt_of_le_of_lt (Nat.sub_le _ _) t.isLt)).2, accLast c (grid1.coords t) (m0 t) (h0 t) (m1 t) (h1 t) (m2 t) (h2 t) (m3 t) (h3 t) (m4 t) (h4 t) accM (Memref.isWhole_whole _) (fun h => e0 ((isFirst_iff t).mp h)) ((isLast_iff t).mpr e1) (blk V c 0 t) (blk V c 1 t) (blk V c 2 t) (blk V c 3 t) (stateAt V c (t.val - 1) (Nat.lt_of_le_of_lt (Nat.sub_le _ _) t.isLt)).2) := by
  obtain ⟨n, hn⟩ := t
  cases n with
  | zero => exact absurd (Nat.zero_mod _) e0
  | succ n => exact (dif_neg e0).trans ((dif_pos e1).trans rfl)

/-! ## The region's invariant -/

/-- Before position `n`: at the region's entry every scoped buffer that is no staging buffer of the region at some
    contents and the generator register at some state; afterwards the same with the accumulator at what the point before left. -/
def inv (c : Dev nD) : (n : ℕ) → n ≤ cfg1.N → sProp 𝕄
  | 0, _ => Pipeline.ΦA spec1 c
  | n + 1, hn => iprop(owns (c : Thread nD τ) accM fullShare ((stateAt V c n hn).2) ∗ otherScoped c ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) accM fullShare ((stateAt V c n hn).2) ∗ otherScoped c ∗ (∃ r, prngReg c r)) := rfl
theorem inv_pos (c : Dev nD) (n : ℕ) (h : n ≤ cfg1.N) (hz : n ≠ 0) :
    inv V c n h = iprop(owns (c : Thread nD τ) accM fullShare ((stateAt V c (n - 1) (by omega)).2) ∗ otherScoped c ∗ (∃ r, prngReg c r)) := by
  cases n with
  | zero => exact absurd rfl hz
  | succ n => rfl

/-- The entry invariant hands out the accumulator at some contents, the other scoped buffers and the register, -/
theorem entry_split (c : Dev nD) :
    (Pipeline.ΦA spec1 c : sProp 𝕄) ⊢ iprop((∃ d, owns (c : Thread nD τ) accM fullShare d) ∗ otherScoped c ∗ (∃ r, prngReg c r)) := by
  unfold Pipeline.ΦA otherScoped; rw [scopedRest1_eq]
  iintro ⟨⟨A1, A2, A3, A4, A5, A6, A7, A8, A9, A10, A11, ⟨%f, HS⟩⟩, Hg⟩
  isplitl [HS]
  · iexists f; rw [owns_whole]; iexact HS
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hg

/-- and takes them back. -/
theorem entry_join (c : Dev nD) :
    iprop((∃ d, owns (c : Thread nD τ) accM fullShare d) ∗ otherScoped c ∗ (∃ r, prngReg c r)) ⊢ (Pipeline.ΦA spec1 c : sProp 𝕄) := by
  unfold Pipeline.ΦA otherScoped; rw [scopedRest1_eq]
  iintro ⟨⟨%d, HS⟩, ⟨A1, A2, A3, A4, A5, A6, A7, A8, A9, A10, A11⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists d; rw [← owns_whole]; iexact HS
  iexact Hg

/-! ## The proof data -/

/-- The region's proof data on core `c`: the arrays as the region finds them; after the body at point `t` each input's
    buffer at its block and the output's at `stateAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (stateAt V c t.val t.isLt).1
  Φ t := inv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = inv V c t.val (Nat.le_of_lt t.isLt) := by
  dsimp only [dat1]; simp only [Fin.coe_castSucc]

theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) : (dat1 V c).after 4 t = (stateAt V c t.val t.isLt).1 := by dsimp only [dat1]

theorem before1_0 (c : Dev nD) (t : Fin cfg1.N) (d) : (dat1 V c).before 0 t d = blk V c 0 t := before_in_0 V (dat1 V c) (A_eq1 V c 0) (after1_0 V c) t d
theorem before1_1 (c : Dev nD) (t : Fin cfg1.N) (d) : (dat1 V c).before 1 t d = blk V c 1 t := before_in_1 V (dat1 V c) (A_eq1 V c 1) (after1_1 V c) t d
theorem before1_2 (c : Dev nD) (t : Fin cfg1.N) (d) : (dat1 V c).before 2 t d = blk V c 2 t := before_in_2 V (dat1 V c) (A_eq1 V c 2) (after1_2 V c) t d
theorem before1_3 (c : Dev nD) (t : Fin cfg1.N) (d) : (dat1 V c).before 3 t d = blk V c 3 t := before_in_3 V (dat1 V c) (A_eq1 V c 3) (after1_3 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (m0 t) fullShare ((dat1 V c).before 0 t d))
    ∗ (∃ d, owns (c : Thread nD τ) (m1 t) fullShare ((dat1 V c).before 1 t d))
    ∗ (∃ d, owns (c : Thread nD τ) (m2 t) fullShare ((dat1 V c).before 2 t d))
    ∗ (∃ d, owns (c : Thread nD τ) (m3 t) fullShare ((dat1 V c).before 3 t d))
    ∗ (∃ d, owns (c : Thread nD τ) (m4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which of the three cases the point
    is in; the invariant hands the body the accumulator at what the point before left (at anything at the very first point)
    and takes it back at this point's contents; away from a last block the output's buffer is handed back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = inv V c (t.val + 1) t.isLt from rfl, inv_succ]
  have hN : t.val < 64 := lt_of_lt_of_eq t.isLt (show cfg1.N = 64 from N_1)
  rw [show (dat1 V c).leavesExact 0 t = owns (c : Thread nD τ) (m0 t) fullShare ((dat1 V c).after 0 t) from by
    unfold Dat.leavesExact; rw [live_0 (grid1.coords t)], after1_0]
  rw [show (dat1 V c).leavesExact 1 t = owns (c : Thread nD τ) (m1 t) fullShare ((dat1 V c).after 1 t) from by
    unfold Dat.leavesExact; rw [live_1 (grid1.coords t)], after1_1]
  rw [show (dat1 V c).leavesExact 2 t = owns (c : Thread nD τ) (m2 t) fullShare ((dat1 V c).after 2 t) from by
    unfold Dat.leavesExact; rw [live_2 (grid1.coords t)], after1_2]
  rw [show (dat1 V c).leavesExact 3 t = owns (c : Thread nD τ) (m3 t) fullShare ((dat1 V c).after 3 t) from by
    unfold Dat.leavesExact; rw [live_3 (grid1.coords t)], after1_3]
  by_cases e0 : t.val % 16 = 0
  · by_cases e1 : t.val % 16 = 15
    · exfalso; omega
    · rw [Dat.leavesExact_idle (dat1 V c) 4 t (idle_out t (fun h => e1 ((isLast_iff t).mp h))) (noFlush_out t (fun h => e1 ((isLast_iff t).mp h)))]
      rw [stateAt_first V c t e0 e1]
      unfold accFirst; (try dsimp only)
      by_cases hz : t.val = 0
      · rw [inv_castSucc V c t, inv_zero V c _ _ hz]
        iintro ⟨HΦ, Ho, ⟨%d0, H0⟩, ⟨%d1, H1⟩, ⟨%d2, H2⟩, ⟨%d3, H3⟩, ⟨%d4, H4⟩⟩
        ihave HΦ' := (entry_split (F := F) c) $$ HΦ
        icases HΦ' with ⟨HS, Hrest, Hg⟩
        iapply ((runFirst c (grid1.coords t) _ _ _ _ _ _ _ _ _ _ _ _ ((isFirst_iff t).mpr e0) (fun h => e1 ((isLast_iff t).mp h)) (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverFirst c _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runFirst c (grid1.coords t) _ _ _ _ _ _ _ _ _ _ _ _ ((isFirst_iff t).mpr e0) (fun h => e1 ((isLast_iff t).mp h)) (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverFirst c _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4
  · by_cases e1 : t.val % 16 = 15
    · rw [show (dat1 V c).leavesExact 4 t = owns (c : Thread nD τ) (m4 t) fullShare ((dat1 V c).after 4 t) from by
        unfold Dat.leavesExact; rw [live_out t ((isLast_iff t).mpr e1)], after1_4]
      rw [stateAt_last V c t e0 e1]
      unfold outLast accLast; (try dsimp only)
      by_cases hz : t.val = 0
      · exfalso; omega
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runLast c (grid1.coords t) _ _ _ _ _ _ _ _ _ _ _ _ (fun h => e0 ((isFirst_iff t).mp h)) ((isLast_iff t).mpr e1) (blk V c 0 t) (blk V c 1 t) (blk V c 2 t) (blk V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hrest Hg]
        · isplitl [HS]
          · unfold owns; iexists _; isplitr
            swap; · iexact HS
            ipureintro; exact View.read_writes_of_cover _ _ _ _ _ (accCoverLast c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCoverLast c _ _ _ _ _ _ _ _ _ _ _ _ _ _ _ _ _ _ _ _)
    · rw [Dat.leavesExact_idle (dat1 V c) 4 t (idle_out t (fun h => e1 ((isLast_iff t).mp h))) (noFlush_out t (fun h => e1 ((isLast_iff t).mp h)))]
      rw [stateAt_inner V c t e0 e1]
      unfold accInner; (try dsimp only)
      by_cases hz : t.val = 0
      · exfalso; omega
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runInner c (grid1.coords t) _ _ _ _ _ _ _ _ _ _ _ _ (fun h => e0 ((isFirst_iff t).mp h)) (fun h => e1 ((isLast_iff t).mp h)) (blk V c 0 t) (blk V c 1 t) (blk V c 2 t) (blk V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverInner c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- The entry invariant is the invariant before the first point. -/
theorem inv_in (c : Dev nD) : Pipeline.ΦA spec1 c ⊢ (dat1 V c).Φ 0 := by
  rw [show (dat1 V c).Φ 0 = inv V c 0 (Nat.zero_le _) from rfl, inv_zero V c 0 _ rfl]
  try exact Idealize.SL.BI.Entails.refl _

/-- After the last point the invariant gives the entry invariant back: what the accumulator holds is forgotten. -/
theorem inv_out (c : Dev nD) : (dat1 V c).Φ (Fin.last cfg1.N) ⊢ Pipeline.ΦA spec1 c := by
  rw [show (dat1 V c).Φ (Fin.last cfg1.N) = inv V c (Fin.last cfg1.N).val (Nat.le_of_lt_succ (Fin.last cfg1.N).isLt) from rfl,
    inv_pos V c _ _ (by rw [Fin.val_last]; have : cfg1.N = 64 := N_1; omega)]
  have hforget : ∀ x : Vec F S2048x256 .f32,
      (iprop(owns (c : Thread nD τ) accM fullShare x ∗ otherScoped c ∗ (∃ r, prngReg c r)) : sProp 𝕄)
        ⊢ iprop((∃ d, owns (c : Thread nD τ) accM fullShare d) ∗ otherScoped c ∗ (∃ r, prngReg c r)) := fun x => by
    iintro ⟨HS, Hrest, Hg⟩
    isplitl [HS]; · iexists _; iexact HS
    isplitl [Hrest]; · iexact Hrest
    iexact Hg
  exact (hforget _).trans (entry_join (F := F) c)

end Cert.KernelIdeal.R1

end
-- ==== Proof.Whole.lean ====
/-
  The whole program's run: the two host stretches and the two kernel regions of the entry function in order.

  The buffers' contents at each boundary are a fold from the launch memory: a host stretch applies its operations; a
  region leaves each of its arrays at what its write-backs make of it and every other buffer as it was.  Over these
  contents: the proof-data family (each region's data at its own entry contents), a record per region (how the thread
  state enters the pipeline's invariant and comes back), the four segments, and the launch theorem for a program of
  several regions — every weakly fair execution terminates with every unscoped buffer at the last boundary's contents.
-/
import proofs.«164384_j57698590654935_2_alg».proof.Proof.Region0
import proofs.«164384_j57698590654935_2_alg».proof.Proof.Region1
import proofs.«164384_j57698590654935_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the two slices of the attention vector): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the destination scores' column recast as a row): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A host stretch leaves the buffers it does not write -/

theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keeps m ρ c main_arg0 (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 0).trans (((R1.dat1 (V3 m ρ) c).arrAt_in 0 rfl _).trans (R1.A_eq1 (V3 m ρ) c 0))
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof-data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`.  Its arrays are split out
    of the unscoped buffers on entry and put back at what the pipeline leaves on exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`.  Its arrays are split out
    of the unscoped buffers on entry and put back at what the pipeline leaves on exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : (iprop((∃ r, prngReg c r) ∗ Pipeline.prefHeld (pcfgs (F := F) 1).pre c (fun _ => fullShare) (adm 1).1 ∗ Pipeline.scopedRest (Pipeline.pin (pcfgs (F := F)) adm 1).spec c) : sProp 𝕄)
        ⊢ Pipeline.ΦA spec1 c := by
      unfold Pipeline.ΦA
      iintro ⟨Hp, -, Hr⟩
      isplitl [Hr]; · iexact Hr
      iexact Hp
    exact hA.trans (R1.inv_in (V3 m ρ) c)
  hout c := by
    rw [Pipeline.ownSems0_none]
    have hA : (Pipeline.ΦA spec1 c : sProp 𝕄)
        ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (R1.inv_out (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Whole

end
-- ==== Proof.WordRegion0.lean ====
/-
  The first kernel call of the program, on its grid of 8 points: from a block of 1024 rows of the features \`x\` and
  the whole of \`W\`, \`a₁\`, \`a₂\` it stores the block's hidden features \`h = x · W\` and the two score columns
  \`h · a₁\`, \`h · a₂\`.

  Everything is stated at a parameter \`V\`: the contents of the core's buffers when the call is entered.

  * \`blockAt\` — a window's block at a grid point, read off its array as the call finds it.
  * \`hidOut\`, \`srcOut\`, \`dstOut\` — what the body leaves in the three output buffers, as functions of the four input
    blocks: each buffer is written by one store over its whole extent.
  * \`kernel_triple\` — the body, run on whole buffers holding the input blocks, returns with the inputs unchanged and
    the outputs at these three values; what the outputs held before is read once and never used.
  * \`dat0\` — the proof data of the call: the arrays as found, each input buffer at its block and each output buffer
    at its value after the body, full shares, nothing owed.
  * \`body_obligation0\` — the body meets the pipeline's obligation at every grid point.
-/
import proofs.«164384_j57698590654935_2_alg».proof.Proof.Gen.Kernel.Launch
import proofs.«164384_j57698590654935_2_alg».proof.Proof.Gen.Kernel.Skeleton
import proofs.«164384_j57698590654935_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 rows is decided coordinate by coordinate
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window \`w\`'s block at grid point \`t\`: the rectangle of its array that the point's block index selects. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's block of \`x\` whenever the body is called: a point that does
    not fetch has the block index of the point before it, and the body leaves the buffer as it found it. -/
theorem staged_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the weights \`W\`, whose one block is the whole array, fetched at the first point only. -/
theorem staged_W_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The same for the source half \`a₁\` of the attention vector. -/
theorem staged_a1_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The same for the destination half \`a₂\`. -/
theorem staged_a2_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes: each is its buffer's whole extent -/

abbrev all_x : Rect S1024x512 := Rect.unit (s := S1024x512) ![0, 0] S1024x512.size inb_S1024x512_S1024x512_0_0
abbrev all_W : Rect S512x256 := Rect.unit (s := S512x256) ![0, 0] S512x256.size inb_S512x256_S512x256_0_0
abbrev all_a : Rect S256x1 := Rect.unit (s := S256x1) ![0, 0] S256x1.size inb_S256x1_S256x1_0_0
abbrev all_h : Rect S1024x256 := Rect.unit (s := S1024x256) ![0, 0] S1024x256.size inb_S1024x256_S1024x256_0_0
abbrev all_s : Rect S1024x1 := Rect.unit (s := S1024x1) ![0, 0] S1024x1.size inb_S1024x1_S1024x1_0_0

/-! ## What the body leaves in each output buffer -/

/-- The hidden-feature buffer after the body: one store of \`x · W\` (rounded to the storage type) over the whole buffer. -/
def hidOut (x0 : Vec F S1024x512 .f32) (x1 : Vec F S512x256 .f32) (x2 : Vec F S256x1 .f32) (x3 : Vec F S256x1 .f32) : Vec F S1024x256 .bf16 :=
  View.canon [⟨all_h, k0_pay1 (View.ld x0 all_x) (View.ld x1 all_W)⟩]

/-- One store over all 1024 × 256 entries covers every entry. -/
theorem hidOut_cover (p0 : Vec F S1024x256 .bf16) (y : S1024x256.Idx) :
    ∃ pc ∈ ([⟨all_h, p0⟩] : List (View.Piece (Elt F) S1024x256 .bf16)), y ∈ pc.1.set :=
  View.cover_of_tiled [⟨all_h, p0⟩] S1024x256.size (by rfl) y

/-- The source-score buffer after the body: one store of \`(x · W) · a₁\` over the whole column. -/
def srcOut (x0 : Vec F S1024x512 .f32) (x1 : Vec F S512x256 .f32) (x2 : Vec F S256x1 .f32) (x3 : Vec F S256x1 .f32) : Vec F S1024x1 .bf16 :=
  View.canon [⟨all_s, k0_pay2 (View.ld x0 all_x) (View.ld x1 all_W) (View.ld x2 all_a)⟩]

/-- The destination-score buffer after the body: one store of \`(x · W) · a₂\` over the whole column. -/
def dstOut (x0 : Vec F S1024x512 .f32) (x1 : Vec F S512x256 .f32) (x2 : Vec F S256x1 .f32) (x3 : Vec F S256x1 .f32) : Vec F S1024x1 .bf16 :=
  View.canon [⟨all_s, k0_pay3 (View.ld x0 all_x) (View.ld x1 all_W) (View.ld x3 all_a)⟩]

/-- One store over all 1024 entries of a column covers every entry. -/
theorem col_cover (p0 : Vec F S1024x1 .bf16) (y : S1024x1.Idx) :
    ∃ pc ∈ ([⟨all_s, p0⟩] : List (View.Piece (Elt F) S1024x1 .bf16)), y ∈ pc.1.set :=
  View.cover_of_tiled [⟨all_s, p0⟩] S1024x1.size (by rfl) y

/-! ## The body's triple -/

set_option maxHeartbeats 1000000 in
/-- The body on whole buffers — the four inputs' at contents \`x0 … x3\`, the three outputs' at anything — returns with
    the inputs' as they were and the outputs' at \`hidOut\`, \`srcOut\`, \`dstOut\` of the inputs. Each output buffer is read
    once before its store; the value read reaches no store. -/
theorem kernel_triple (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .bf16) (harg6 : arg6.IsWhole)
    (arg7 : Memref sig .tc .vmem S1024x1 .bf16) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (hidOut x0 x1 x2 x3) ∗ owns (c : Thread nD τ) arg6 fullShare (srcOut x0 x1 x2 x3) ∗ owns (c : Thread nD τ) arg7 fullShare (dstOut x0 x1 x2 x3)) -∗ K ⟨⟩))
      ⊢ wp frame (wpE (defs₀ (F := F)) Variants.none c none) E (cc0__h_kernel i arg1 harg1 arg2 harg2 arg3 harg3 arg4 harg4 arg5 harg5 arg6 harg6 arg7 harg7) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hidOut_cover _)
  isplitl [H5]
  · iexists _; isplitr
    swap; · iexact H5
    ipureintro
    exact View.read_writes_eq_canon _ _ _ (col_cover _)
  iexists _; isplitr
  swap; · iexact H6
  ipureintro
  exact View.read_writes_eq_canon _ _ _ (col_cover _)

/-! ## The call's proof data -/

/-- The proof data of the call on core \`c\`: the arrays as the call finds them; after the body at point \`t\` each input
    buffer at its block and each output buffer at its value from the input blocks; the invariant that of a body which
    touches only its staging buffers; full shares; nothing owed. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => hidOut (blockAt V c 0 t) (blockAt V c 1 t) (blockAt V c 2 t) (blockAt V c 3 t)
    | ⟨5, _⟩ => srcOut (blockAt V c 0 t) (blockAt V c 1 t) (blockAt V c 2 t) (blockAt V c 3 t)
    | ⟨6, _⟩ => dstOut (blockAt V c 0 t) (blockAt V c 1 t) (blockAt V c 2 t) (blockAt V c 3 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blockAt V c 0 t := by dsimp only [dat0]
theorem after0_1 (c : Dev nD) (t : Fin cfg0.N) : (dat0 V c).after 1 t = blockAt V c 1 t := by dsimp only [dat0]
theorem after0_2 (c : Dev nD) (t : Fin cfg0.N) : (dat0 V c).after 2 t = blockAt V c 2 t := by dsimp only [dat0]
theorem after0_3 (c : Dev nD) (t : Fin cfg0.N) : (dat0 V c).after 3 t = blockAt V c 3 t := by dsimp only [dat0]
theorem after0_4 (c : Dev nD) (t : Fin cfg0.N) : (dat0 V c).after 4 t = hidOut (blockAt V c 0 t) (blockAt V c 1 t) (blockAt V c 2 t) (blockAt V c 3 t) := by dsimp only [dat0]
theorem after0_5 (c : Dev nD) (t : Fin cfg0.N) : (dat0 V c).after 5 t = srcOut (blockAt V c 0 t) (blockAt V c 1 t) (blockAt V c 2 t) (blockAt V c 3 t) := by dsimp only [dat0]
theorem after0_6 (c : Dev nD) (t : Fin cfg0.N) : (dat0 V c).after 6 t = dstOut (blockAt V c 0 t) (blockAt V c 1 t) (blockAt V c 2 t) (blockAt V c 3 t) := by dsimp only [dat0]

/-- Each input's staging buffer holds its block at every point. -/
theorem staged_x (c : Dev nD) (t : Fin cfg0.N) (d) : (dat0 V c).before 0 t d = blockAt V c 0 t :=
  staged_x_of V (dat0 V c) (A_eq0 V c 0) (after0_0 V c) t d
theorem staged_W (c : Dev nD) (t : Fin cfg0.N) (d) : (dat0 V c).before 1 t d = blockAt V c 1 t :=
  staged_W_of V (dat0 V c) (A_eq0 V c 1) (after0_1 V c) t d
theorem staged_a1 (c : Dev nD) (t : Fin cfg0.N) (d) : (dat0 V c).before 2 t d = blockAt V c 2 t :=
  staged_a1_of V (dat0 V c) (A_eq0 V c 2) (after0_2 V c) t d
theorem staged_a2 (c : Dev nD) (t : Fin cfg0.N) (d) : (dat0 V c).before 3 t d = blockAt V c 3 t :=
  staged_a2_of V (dat0 V c) (A_eq0 V c 3) (after0_3 V c) t d

/-! ## The body obligation -/

/-- What the body is called with at point \`t\`: the invariant, the core's debts, and each window's current staging
    buffer at what the pipeline left in it, -/
def callPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at the proof data's value after the body. -/
def callPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the body's triple applies; the invariant and the
    core's debts pass through unread. -/
theorem body_triple (c : Dev nD) (t : Fin cfg0.N) :
    callPre V c t ⊢ wp frame (wpE (defs₀ (F := F)) Variants.none c none) Set.univ (bodyAt0 t) (fun _ => callPost V c t) := by
  unfold callPre callPost bodyAt0
  simp only [staged_x, staged_W, staged_a1, staged_a2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_triple c Set.univ _ _ _ _ _ _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact body_triple V c t

end Cert.Kernel.R0

end
-- ==== Proof.WordRegion1Base.lean ====
/-
  The second kernel region (the aggregation): what its three control cases share.

  The grid is 4 × 16: point `t = 16·i + j` handles rows `2048·i …` against the `j`-th block of 512 columns.  The body
  clears its scratch accumulator when `j = 0`, adds the block's two matrix products to it at every point, and copies it
  to the output block when `j = 15`; at the other points the output block is left alone and not written back.
  Here: the two conditions decided over the grid in closed form, where the output window is idle and where it is
  written back, the staging memrefs a point is called with, the scratch as a view, and the region's entry invariant with
  the scratch buffer spelt out.
-/
import proofs.«164384_j57698590654935_2_alg».proof.Proof.Gen.Kernel.Launch
import proofs.«164384_j57698590654935_2_alg».proof.Proof.Gen.Kernel.Skeleton
import proofs.«164384_j57698590654935_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data over these arrays that leaves input blocks in place. -/
theorem before_in_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- "This is the first block of columns": the accumulator is cleared. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- "This is the last block of columns": the accumulator is copied out. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
/-- Away from the last block of columns the output window is idle and is not written back. -/
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
theorem live_out : ∀ t : Fin cfg1.N, isLast (grid1.coords t) → cfg1.idle 4 (grid1.coords t) = false := by decide +kernel

/-! ## The memrefs a point is called with -/

abbrev m0 (t : Fin cfg1.N) : Memref sig .tc .vmem S2048x512 .i32 := win1_0.stage (cfg1.slots t 0)
abbrev h0 (t : Fin cfg1.N) : (m0 t).IsWhole := hstage1_0 ((cfg1.slots t 0).cast nbuf1_0)
abbrev m1 (t : Fin cfg1.N) : Memref sig .tc .vmem S2048x1 .bf16 := win1_1.stage (cfg1.slots t 1)
abbrev h1 (t : Fin cfg1.N) : (m1 t).IsWhole := hstage1_1 ((cfg1.slots t 1).cast nbuf1_1)
abbrev m2 (t : Fin cfg1.N) : Memref sig .tc .vmem S1x512 .bf16 := win1_2.stage (cfg1.slots t 2)
abbrev h2 (t : Fin cfg1.N) : (m2 t).IsWhole := hstage1_2 ((cfg1.slots t 2).cast nbuf1_2)
abbrev m3 (t : Fin cfg1.N) : Memref sig .tc .vmem S512x256 .bf16 := win1_3.stage (cfg1.slots t 3)
abbrev h3 (t : Fin cfg1.N) : (m3 t).IsWhole := hstage1_3 ((cfg1.slots t 3).cast nbuf1_3)
abbrev m4 (t : Fin cfg1.N) : Memref sig .tc .vmem S2048x256 .f32 := win1_4.stage (cfg1.slots t 4)
abbrev h4 (t : Fin cfg1.N) : (m4 t).IsWhole := hstage1_4 ((cfg1.slots t 4).cast nbuf1_4)
/-- The scratch accumulator: a whole scoped buffer of the kernel's own. -/
abbrev accM : Memref sig .tc .vmem S2048x256 .f32 := Memref.whole cc1_scratch0
/-- The accumulator and one output staging buffer as views, through which their contents are stated. -/
abbrev accV : View sig .tc .vmem S2048x256 .f32 := accM.view
abbrev outV : View sig .tc .vmem S2048x256 .f32 := (Memref.whole cc1_stg4_0 : Memref sig .tc .vmem S2048x256 .f32).view

/-- The invariant the region is entered with — every scoped buffer that is no staging buffer of this region at some
    contents, and the generator register at some state — regrouped as: the accumulator at some contents, the other such
    buffers, the register. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.Kernel.R1

end
-- ==== Proof.WordRegion1RunFirst.lean ====
/-
  The aggregation body run once, at a point of the first block of columns (the accumulator is cleared, then added to; nothing is copied out).
  The run is symbolic: on whole staging memrefs holding the four input blocks, the output block's buffer at any contents
  (handed back untouched: the body does not store into it here) and the accumulator at anything, the
  body runs to its end with the inputs as they were and with the stores it made into the accumulator recorded as a list
  of pieces (last store first).
-/
import proofs.«164384_j57698590654935_2_alg».proof.Proof.WordRegion1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of the first block of columns (the accumulator is cleared, then added to; nothing is copied out), with the proof that the body runs to its end leaving them. -/
noncomputable def runFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i)
    (x0 : Vec F S2048x512 .i32) (x1 : Vec F S2048x1 .bf16) (x2 : Vec F S1x512 .bf16) (x3 : Vec F S512x256 .bf16) :
    Σ' (L4 : List (View.Piece (Elt F) S2048x256 .f32)), { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨[], ?_, fun xi E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.R1

end
-- ==== Proof.WordRegion1RunInner.lean ====
/-
  The aggregation body run once, at a point of an inner block of columns (the accumulator is added to; nothing is copied out).
  The run is symbolic: on whole staging memrefs holding the four input blocks, the output block's buffer at any contents
  (handed back untouched: the body does not store into it here) and the accumulator at the contents the point before left, the
  body runs to its end with the inputs as they were and with the stores it made into the accumulator recorded as a list
  of pieces (last store first).
-/
import proofs.«164384_j57698590654935_2_alg».proof.Proof.WordRegion1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of an inner block of columns (the accumulator is added to; nothing is copied out), with the proof that the body runs to its end leaving them. -/
noncomputable def runInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i)
    (x0 : Vec F S2048x512 .i32) (x1 : Vec F S2048x1 .bf16) (x2 : Vec F S1x512 .bf16) (x3 : Vec F S512x256 .bf16) (xs : Vec F S2048x256 .f32) :
    Σ' (L4 : List (View.Piece (Elt F) S2048x256 .f32)), { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨[], ?_, fun xi E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.R1

end
-- ==== Proof.WordRegion1RunLast.lean ====
/-
  The aggregation body run once, at a point of the last block of columns (the accumulator is added to, then copied to the output block).
  The run is symbolic: on whole staging memrefs holding the four input blocks, the output block's buffer at anything and
  the accumulator at the contents the point before left, the body runs to its end with the inputs as they were and with
  the stores it made into the output buffer and into the accumulator recorded as lists of pieces (last store first).
-/
import proofs.«164384_j57698590654935_2_alg».proof.Proof.WordRegion1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a point of the last block of columns (the accumulator is added to, then copied to the output block), with the proof that the body runs to its end leaving them. -/
noncomputable def runLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i)
    (x0 : Vec F S2048x512 .i32) (x1 : Vec F S2048x1 .bf16) (x2 : Vec F S1x512 .bf16) (x3 : Vec F S512x256 .bf16) (xs : Vec F S2048x256 .f32) :
    Σ' (L4 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.R1

end
-- ==== Proof.WordRegion1.lean ====
/-
  The second kernel region (the aggregation): its proof data and its body obligation.

  From the three symbolic runs of the body: what the accumulator and the output block's buffer hold after each grid point,
  by recursion on the point (the accumulator is carried from point to point; the output's buffer is stored only at the
  last block of columns of each block of rows); the region's invariant (the accumulator at that recursion's value); the
  proof data; and the obligation that the body, called at any point on what the pipeline hands it, returns what the
  proof data say.
-/
import proofs.«164384_j57698590654935_2_alg».proof.Proof.WordRegion1RunFirst
import proofs.«164384_j57698590654935_2_alg».proof.Proof.WordRegion1RunInner
import proofs.«164384_j57698590654935_2_alg».proof.Proof.WordRegion1RunLast

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator's pieces at a first block tile it, so they cover it. -/
theorem accCoverFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) (y : S2048x256.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S2048x256.size (by sl_kernel_rfl) y

/-- What the accumulator holds afterwards: its pieces read back. -/
def accFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) : Vec F S2048x256 .f32 :=
  accV.read (Elt F) (accV.writes (Elt F) accV.junk (runFirst c i arg2 harg2 arg3 harg3 arg4 harg4 arg5 harg5 arg6 harg6 arg7 harg7 hc0 hc1 x0 x1 x2 x3).2.1)

/-- What the output block's buffer holds afterwards: its pieces read back (none here: a placeholder nothing consults, the window being idle and not written back). -/
def outFirst (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) : Vec F S2048x256 .f32 :=
  outV.read (Elt F) (outV.writes (Elt F) outV.junk (runFirst c i arg2 harg2 arg3 harg3 arg4 harg4 arg5 harg5 arg6 harg6 arg7 harg7 hc0 hc1 x0 x1 x2 x3).1)

/-- The accumulator's pieces at an inner block tile it, so they cover it. -/
theorem accCoverInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runInner c i arg2 harg2 arg3 harg3 arg4 harg4 arg5 harg5 arg6 harg6 arg7 harg7 hc0 hc1 x0 x1 x2 x3 xs).2.1, y ∈ pc.1.set :=
  View.cover_of_tiledL (runInner c i arg2 harg2 arg3 harg3 arg4 harg4 arg5 harg5 arg6 harg6 arg7 harg7 hc0 hc1 x0 x1 x2 x3 xs).2.1 S2048x256.size (by sl_kernel_rfl) y

/-- What the accumulator holds afterwards: its pieces read back. -/
def accInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) : Vec F S2048x256 .f32 :=
  accV.read (Elt F) (accV.writes (Elt F) accV.junk (runInner c i arg2 harg2 arg3 harg3 arg4 harg4 arg5 harg5 arg6 harg6 arg7 harg7 hc0 hc1 x0 x1 x2 x3 xs).2.1)

/-- What the output block's buffer holds afterwards: its pieces read back (none here: a placeholder nothing consults, the window being idle and not written back). -/
def outInner (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) : Vec F S2048x256 .f32 :=
  outV.read (Elt F) (outV.writes (Elt F) outV.junk (runInner c i arg2 harg2 arg3 harg3 arg4 harg4 arg5 harg5 arg6 harg6 arg7 harg7 hc0 hc1 x0 x1 x2 x3 xs).1)

/-- The accumulator's pieces at a last block tile it, so they cover it. -/
theorem accCoverLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S2048x256.size (by sl_kernel_rfl) y

/-- What the accumulator holds afterwards: its pieces read back. -/
def accLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) : Vec F S2048x256 .f32 :=
  accV.read (Elt F) (accV.writes (Elt F) accV.junk (runLast c i arg2 harg2 arg3 harg3 arg4 harg4 arg5 harg5 arg6 harg6 arg7 harg7 hc0 hc1 x0 x1 x2 x3 xs).2.1)

/-- What the output block's buffer holds afterwards: its pieces read back. -/
def outLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) : Vec F S2048x256 .f32 :=
  outV.read (Elt F) (outV.writes (Elt F) outV.junk (runLast c i arg2 harg2 arg3 harg3 arg4 harg4 arg5 harg5 arg6 harg6 arg7 harg7 hc0 hc1 x0 x1 x2 x3 xs).1)

/-- At a last block the output's pieces tile its block, so they cover it. -/
theorem outCoverLast (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) (y : S2048x256.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S2048x256.size (by sl_kernel_rfl) y

/-! ## What the output block's buffer and the accumulator hold after each point -/

/-- THE ACCUMULATION: the pair (output block's buffer, accumulator) after the body at position `n`: the case the
    closed forms select, run at the point's memrefs and input blocks, the accumulator entering at what position `n − 1`
    left (it is a scoped buffer nothing else touches). -/
def stateAt (c : Dev nD) : (n : ℕ) → n < cfg1.N → Vec F S2048x256 .f32 × Vec F S2048x256 .f32
  | 0, hn => (outFirst c (grid1.coords ⟨0, hn⟩) (m0 ⟨0, hn⟩) (h0 ⟨0, hn⟩) (m1 ⟨0, hn⟩) (h1 ⟨0, hn⟩) (m2 ⟨0, hn⟩) (h2 ⟨0, hn⟩) (m3 ⟨0, hn⟩) (h3 ⟨0, hn⟩) (m4 ⟨0, hn⟩) (h4 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩), accFirst c (grid1.coords ⟨0, hn⟩) (m0 ⟨0, hn⟩) (h0 ⟨0, hn⟩) (m1 ⟨0, hn⟩) (h1 ⟨0, hn⟩) (m2 ⟨0, hn⟩) (h2 ⟨0, hn⟩) (m3 ⟨0, hn⟩) (h3 ⟨0, hn⟩) (m4 ⟨0, hn⟩) (h4 ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩))
  | n + 1, hn =>
    if e0 : (n + 1) % 16 = 0 then
      if e1 : (n + 1) % 16 = 15 then False.elim (by omega)
      else (outFirst c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) ((isFirst_iff ⟨n + 1, hn⟩).mpr e0) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩), accFirst c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) ((isFirst_iff ⟨n + 1, hn⟩).mpr e0) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩))
    else
      if e1 : (n + 1) % 16 = 15 then (outLast c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) ((isLast_iff ⟨n + 1, hn⟩).mpr e1) (blk V c 0 ⟨n + 1, hn⟩) (blk V c 1 ⟨n + 1, hn⟩) (blk V c 2 ⟨n + 1, hn⟩) (blk V c 3 ⟨n + 1, hn⟩) (stateAt c n (Nat.lt_of_succ_lt hn)).2, accLast c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) ((isLast_iff ⟨n + 1, hn⟩).mpr e1) (blk V c 0 ⟨n + 1, hn⟩) (blk V c 1 ⟨n + 1, hn⟩) (blk V c 2 ⟨n + 1, hn⟩) (blk V c 3 ⟨n + 1, hn⟩) (stateAt c n (Nat.lt_of_succ_lt hn)).2)
      else (outInner c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩) (stateAt c n (Nat.lt_of_succ_lt hn)).2, accInner c (grid1.coords ⟨n + 1, hn⟩) (m0 ⟨n + 1, hn⟩) (h0 ⟨n + 1, hn⟩) (m1 ⟨n + 1, hn⟩) (h1 ⟨n + 1, hn⟩) (m2 ⟨n + 1, hn⟩) (h2 ⟨n + 1, hn⟩) (m3 ⟨n + 1, hn⟩) (h3 ⟨n + 1, hn⟩) (m4 ⟨n + 1, hn⟩) (h4 ⟨n + 1, hn⟩) accM (Memref.isWhole_whole _) (fun h => e0 ((isFirst_iff ⟨n + 1, hn⟩).mp h)) (fun h => e1 ((isLast_iff ⟨n + 1, hn⟩).mp h)) (blk V c 0 ⟨n + 1, hn⟩) (blk V c 1 ⟨n + 1, hn⟩) (blk V c 2 ⟨n + 1, hn⟩) (blk V c 3 ⟨n + 1, hn⟩) (stateAt c n (Nat.lt_of_succ_lt hn)).2)

theorem stateAt_first (c : Dev nD) (t : Fin cfg1.N) (e0 : t.val % 16 = 0) (e1 : ¬t.val % 16 = 15) :
    stateAt V c t.val t.isLt = (outFirst c (grid1.coords t) (m0 t) (h0 t) (m1 t) (h1 t) (m2 t) (h2 t) (m3 t) (h3 t) (m4 t) (h4 t) accM (Memref.isWhole_whole _) ((isFirst_iff t).mpr e0) (fun h => e1 ((isLast_iff t).mp h)) (blk V c 0 t) (blk V c 1 t) (blk V c 2 t) (blk V c 3 t), accFirst c (grid1.coords t) (m0 t) (h0 t) (m1 t) (h1 t) (m2 t) (h2 t) (m3 t) (h3 t) (m4 t) (h4 t) accM (Memref.isWhole_whole _) ((isFirst_iff t).mpr e0) (fun h => e1 ((isLast_iff t).mp h)) (blk V c 0 t) (blk V c 1 t) (blk V c 2 t) (blk V c 3 t)) := by
  obtain ⟨n, hn⟩ := t
  cases n with
  | zero => exact rfl
  | succ n => exact (dif_pos e0).trans ((dif_neg e1).trans rfl)

theorem stateAt_inner (c : Dev nD) (t : Fin cfg1.N) (e0 : ¬t.val % 16 = 0) (e1 : ¬t.val % 16 = 15) :
    stateAt V c t.val t.isLt = (outInner c (grid1.coords t) (m0 t) (h0 t) (m1 t) (h1 t) (m2 t) (h2 t) (m3 t) (h3 t) (m4 t) (h4 t) accM (Memref.isWhole_whole _) (fun h => e0 ((isFirst_iff t).mp h)) (fun h => e1 ((isLast_iff t).mp h)) (blk V c 0 t) (blk V c 1 t) (blk V c 2 t) (blk V c 3 t) (stateAt V c (t.val - 1) (Nat.lt_of_le_of_lt (Nat.sub_le _ _) t.isLt)).2, accInner c (grid1.coords t) (m0 t) (h0 t) (m1 t) (h1 t) (m2 t) (h2 t) (m3 t) (h3 t) (m4 t) (h4 t) accM (Memref.isWhole_whole _) (fun h => e0 ((isFirst_iff t).mp h)) (fun h => e1 ((isLast_iff t).mp h)) (blk V c 0 t) (blk V c 1 t) (blk V c 2 t) (blk V c 3 t) (stateAt V c (t.val - 1) (Nat.lt_of_le_of_lt (Nat.sub_le _ _) t.isLt)).2) := by
  obtain ⟨n, hn⟩ := t
  cases n with
  | zero => exact absurd (Nat.zero_mod _) e0
  | succ n => exact (dif_neg e0).trans ((dif_neg e1).trans rfl)

theorem stateAt_last (c : Dev nD) (t : Fin cfg1.N) (e0 : ¬t.val % 16 = 0) (e1 : t.val % 16 = 15) :
    stateAt V c t.val t.isLt = (outLast c (grid1.coords t) (m0 t) (h0 t) (m1 t) (h1 t) (m2 t) (h2 t) (m3 t) (h3 t) (m4 t) (h4 t) accM (Memref.isWhole_whole _) (fun h => e0 ((isFirst_iff t).mp h)) ((isLast_iff t).mpr e1) (blk V c 0 t) (blk V c 1 t) (blk V c 2 t) (blk V c 3 t) (stateAt V c (t.val - 1) (Nat.lt_of_le_of_lt (Nat.sub_le _ _) t.isLt)).2, accLast c (grid1.coords t) (m0 t) (h0 t) (m1 t) (h1 t) (m2 t) (h2 t) (m3 t) (h3 t) (m4 t) (h4 t) accM (Memref.isWhole_whole _) (fun h => e0 ((isFirst_iff t).mp h)) ((isLast_iff t).mpr e1) (blk V c 0 t) (blk V c 1 t) (blk V c 2 t) (blk V c 3 t) (stateAt V c (t.val - 1) (Nat.lt_of_le_of_lt (Nat.sub_le _ _) t.isLt)).2) := by
  obtain ⟨n, hn⟩ := t
  cases n with
  | zero => exact absurd (Nat.zero_mod _) e0
  | succ n => exact (dif_neg e0).trans ((dif_pos e1).trans rfl)

/-! ## The region's invariant -/

/-- Before position `n`: at the region's entry every scoped buffer that is no staging buffer of the region at some
    contents and the generator register at some state; afterwards the same with the accumulator at what the point before left. -/
def inv (c : Dev nD) : (n : ℕ) → n ≤ cfg1.N → sProp 𝕄
  | 0, _ => Pipeline.ΦA spec1 c
  | n + 1, hn => iprop(owns (c : Thread nD τ) accM fullShare ((stateAt V c n hn).2) ∗ otherScoped c ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) accM fullShare ((stateAt V c n hn).2) ∗ otherScoped c ∗ (∃ r, prngReg c r)) := rfl
theorem inv_pos (c : Dev nD) (n : ℕ) (h : n ≤ cfg1.N) (hz : n ≠ 0) :
    inv V c n h = iprop(owns (c : Thread nD τ) accM fullShare ((stateAt V c (n - 1) (by omega)).2) ∗ otherScoped c ∗ (∃ r, prngReg c r)) := by
  cases n with
  | zero => exact absurd rfl hz
  | succ n => rfl

/-- The entry invariant hands out the accumulator at some contents, the other scoped buffers and the register, -/
theorem entry_split (c : Dev nD) :
    (Pipeline.ΦA spec1 c : sProp 𝕄) ⊢ iprop((∃ d, owns (c : Thread nD τ) accM fullShare d) ∗ otherScoped c ∗ (∃ r, prngReg c r)) := by
  unfold Pipeline.ΦA otherScoped; rw [scopedRest1_eq]
  iintro ⟨⟨A1, A2, A3, A4, A5, A6, A7, A8, A9, A10, A11, ⟨%f, HS⟩⟩, Hg⟩
  isplitl [HS]
  · iexists f; rw [owns_whole]; iexact HS
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hg

/-- and takes them back. -/
theorem entry_join (c : Dev nD) :
    iprop((∃ d, owns (c : Thread nD τ) accM fullShare d) ∗ otherScoped c ∗ (∃ r, prngReg c r)) ⊢ (Pipeline.ΦA spec1 c : sProp 𝕄) := by
  unfold Pipeline.ΦA otherScoped; rw [scopedRest1_eq]
  iintro ⟨⟨%d, HS⟩, ⟨A1, A2, A3, A4, A5, A6, A7, A8, A9, A10, A11⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists d; rw [← owns_whole]; iexact HS
  iexact Hg

/-! ## The proof data -/

/-- The region's proof data on core `c`: the arrays as the region finds them; after the body at point `t` each input's
    buffer at its block and the output's at `stateAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (stateAt V c t.val t.isLt).1
  Φ t := inv V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = inv V c t.val (Nat.le_of_lt t.isLt) := by
  dsimp only [dat1]; simp only [Fin.coe_castSucc]

theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) : (dat1 V c).after 3 t = blk V c 3 t := by dsimp only [dat1]
theorem after1_4 (c : Dev nD) (t : Fin cfg1.N) : (dat1 V c).after 4 t = (stateAt V c t.val t.isLt).1 := by dsimp only [dat1]

theorem before1_0 (c : Dev nD) (t : Fin cfg1.N) (d) : (dat1 V c).before 0 t d = blk V c 0 t := before_in_0 V (dat1 V c) (A_eq1 V c 0) (after1_0 V c) t d
theorem before1_1 (c : Dev nD) (t : Fin cfg1.N) (d) : (dat1 V c).before 1 t d = blk V c 1 t := before_in_1 V (dat1 V c) (A_eq1 V c 1) (after1_1 V c) t d
theorem before1_2 (c : Dev nD) (t : Fin cfg1.N) (d) : (dat1 V c).before 2 t d = blk V c 2 t := before_in_2 V (dat1 V c) (A_eq1 V c 2) (after1_2 V c) t d
theorem before1_3 (c : Dev nD) (t : Fin cfg1.N) (d) : (dat1 V c).before 3 t d = blk V c 3 t := before_in_3 V (dat1 V c) (A_eq1 V c 3) (after1_3 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (m0 t) fullShare ((dat1 V c).before 0 t d))
    ∗ (∃ d, owns (c : Thread nD τ) (m1 t) fullShare ((dat1 V c).before 1 t d))
    ∗ (∃ d, owns (c : Thread nD τ) (m2 t) fullShare ((dat1 V c).before 2 t d))
    ∗ (∃ d, owns (c : Thread nD τ) (m3 t) fullShare ((dat1 V c).before 3 t d))
    ∗ (∃ d, owns (c : Thread nD τ) (m4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which of the three cases the point
    is in; the invariant hands the body the accumulator at what the point before left (at anything at the very first point)
    and takes it back at this point's contents; away from a last block the output's buffer is handed back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = inv V c (t.val + 1) t.isLt from rfl, inv_succ]
  have hN : t.val < 64 := lt_of_lt_of_eq t.isLt (show cfg1.N = 64 from N_1)
  rw [show (dat1 V c).leavesExact 0 t = owns (c : Thread nD τ) (m0 t) fullShare ((dat1 V c).after 0 t) from by
    unfold Dat.leavesExact; rw [live_0 (grid1.coords t)], after1_0]
  rw [show (dat1 V c).leavesExact 1 t = owns (c : Thread nD τ) (m1 t) fullShare ((dat1 V c).after 1 t) from by
    unfold Dat.leavesExact; rw [live_1 (grid1.coords t)], after1_1]
  rw [show (dat1 V c).leavesExact 2 t = owns (c : Thread nD τ) (m2 t) fullShare ((dat1 V c).after 2 t) from by
    unfold Dat.leavesExact; rw [live_2 (grid1.coords t)], after1_2]
  rw [show (dat1 V c).leavesExact 3 t = owns (c : Thread nD τ) (m3 t) fullShare ((dat1 V c).after 3 t) from by
    unfold Dat.leavesExact; rw [live_3 (grid1.coords t)], after1_3]
  by_cases e0 : t.val % 16 = 0
  · by_cases e1 : t.val % 16 = 15
    · exfalso; omega
    · rw [Dat.leavesExact_idle (dat1 V c) 4 t (idle_out t (fun h => e1 ((isLast_iff t).mp h))) (noFlush_out t (fun h => e1 ((isLast_iff t).mp h)))]
      rw [stateAt_first V c t e0 e1]
      unfold accFirst; (try dsimp only)
      by_cases hz : t.val = 0
      · rw [inv_castSucc V c t, inv_zero V c _ _ hz]
        iintro ⟨HΦ, Ho, ⟨%d0, H0⟩, ⟨%d1, H1⟩, ⟨%d2, H2⟩, ⟨%d3, H3⟩, ⟨%d4, H4⟩⟩
        ihave HΦ' := (entry_split (F := F) c) $$ HΦ
        icases HΦ' with ⟨HS, Hrest, Hg⟩
        iapply ((runFirst c (grid1.coords t) _ _ _ _ _ _ _ _ _ _ _ _ ((isFirst_iff t).mpr e0) (fun h => e1 ((isLast_iff t).mp h)) (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverFirst c _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runFirst c (grid1.coords t) _ _ _ _ _ _ _ _ _ _ _ _ ((isFirst_iff t).mpr e0) (fun h => e1 ((isLast_iff t).mp h)) (blk V c 0 t) (blk V c 1 t) (blk V c 2 t) (blk V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverFirst c _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4
  · by_cases e1 : t.val % 16 = 15
    · rw [show (dat1 V c).leavesExact 4 t = owns (c : Thread nD τ) (m4 t) fullShare ((dat1 V c).after 4 t) from by
        unfold Dat.leavesExact; rw [live_out t ((isLast_iff t).mpr e1)], after1_4]
      rw [stateAt_last V c t e0 e1]
      unfold outLast accLast; (try dsimp only)
      by_cases hz : t.val = 0
      · exfalso; omega
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runLast c (grid1.coords t) _ _ _ _ _ _ _ _ _ _ _ _ (fun h => e0 ((isFirst_iff t).mp h)) ((isLast_iff t).mpr e1) (blk V c 0 t) (blk V c 1 t) (blk V c 2 t) (blk V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hrest Hg]
        · isplitl [HS]
          · unfold owns; iexists _; isplitr
            swap; · iexact HS
            ipureintro; exact View.read_writes_of_cover _ _ _ _ _ (accCoverLast c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCoverLast c _ _ _ _ _ _ _ _ _ _ _ _ _ _ _ _ _ _ _ _)
    · rw [Dat.leavesExact_idle (dat1 V c) 4 t (idle_out t (fun h => e1 ((isLast_iff t).mp h))) (noFlush_out t (fun h => e1 ((isLast_iff t).mp h)))]
      rw [stateAt_inner V c t e0 e1]
      unfold accInner; (try dsimp only)
      by_cases hz : t.val = 0
      · exfalso; omega
      · rw [inv_castSucc V c t, inv_pos V c _ _ hz]
        iintro ⟨⟨HS, Hrest, Hg⟩, Ho, ⟨%d0, H0⟩, ⟨%d1, H1⟩, ⟨%d2, H2⟩, ⟨%d3, H3⟩, ⟨%d4, H4⟩⟩
        iapply ((runInner c (grid1.coords t) _ _ _ _ _ _ _ _ _ _ _ _ (fun h => e0 ((isFirst_iff t).mp h)) (fun h => e1 ((isLast_iff t).mp h)) (blk V c 0 t) (blk V c 1 t) (blk V c 2 t) (blk V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hrest Hg]
        · isplitl [HS]
          · unfold owns; iexists _; isplitr
            swap; · iexact HS
            ipureintro; exact View.read_writes_of_cover _ _ _ _ _ (accCoverInner c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- The entry invariant is the invariant before the first point. -/
theorem inv_in (c : Dev nD) : Pipeline.ΦA spec1 c ⊢ (dat1 V c).Φ 0 := by
  rw [show (dat1 V c).Φ 0 = inv V c 0 (Nat.zero_le _) from rfl, inv_zero V c 0 _ rfl]
  try exact Idealize.SL.BI.Entails.refl _

/-- After the last point the invariant gives the entry invariant back: what the accumulator holds is forgotten. -/
theorem inv_out (c : Dev nD) : (dat1 V c).Φ (Fin.last cfg1.N) ⊢ Pipeline.ΦA spec1 c := by
  rw [show (dat1 V c).Φ (Fin.last cfg1.N) = inv V c (Fin.last cfg1.N).val (Nat.le_of_lt_succ (Fin.last cfg1.N).isLt) from rfl,
    inv_pos V c _ _ (by rw [Fin.val_last]; have : cfg1.N = 64 := N_1; omega)]
  have hforget : ∀ x : Vec F S2048x256 .f32,
      (iprop(owns (c : Thread nD τ) accM fullShare x ∗ otherScoped c ∗ (∃ r, prngReg c r)) : sProp 𝕄)
        ⊢ iprop((∃ d, owns (c : Thread nD τ) accM fullShare d) ∗ otherScoped c ∗ (∃ r, prngReg c r)) := fun x => by
    iintro ⟨HS, Hrest, Hg⟩
    isplitl [HS]; · iexists _; iexact HS
    isplitl [Hrest]; · iexact Hrest
    iexact Hg
  exact (hforget _).trans (entry_join (F := F) c)

end Cert.Kernel.R1

end
-- ==== Proof.WordWhole.lean ====
/-
  The whole program's run: the two host stretches and the two kernel regions of the entry function in order.

  The buffers' contents at each boundary are a fold from the launch memory: a host stretch applies its operations; a
  region leaves each of its arrays at what its write-backs make of it and every other buffer as it was.  Over these
  contents: the proof-data family (each region's data at its own entry contents), a record per region (how the thread
  state enters the pipeline's invariant and comes back), the four segments, and the launch theorem for a program of
  several regions — every weakly fair execution terminates with every unscoped buffer at the last boundary's contents.
-/
import proofs.«164384_j57698590654935_2_alg».proof.Proof.WordRegion0
import proofs.«164384_j57698590654935_2_alg».proof.Proof.WordRegion1
import proofs.«164384_j57698590654935_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the two slices of the attention vector): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the destination scores' column recast as a row): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A host stretch leaves the buffers it does not write -/

theorem W1_keeps (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keeps (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keeps m ρ c main_arg0 (by decide)
    _ = W1 m ρ c (Proc.devRef .tc main_arg0) := (W2_arr m ρ c 0).trans (((R0.dat0 (V1 m ρ) c).arrAt_in 0 rfl _).trans (R0.A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keeps m ρ c main_arg1 (by decide)
    _ = W1 m ρ c (Proc.devRef .tc main_arg1) := (W2_arr m ρ c 1).trans (((R0.dat0 (V1 m ρ) c).arrAt_in 1 rfl _).trans (R0.A_eq0 (V1 m ρ) c 1))
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keeps m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 0).trans (((R1.dat1 (V3 m ρ) c).arrAt_in 0 rfl _).trans (R1.A_eq1 (V3 m ρ) c 0))
    _ = W2 m ρ c (Proc.devRef .tc main_arg3) := W3_keeps m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof-data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`.  Its arrays are split out
    of the unscoped buffers on entry and put back at what the pipeline leaves on exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`.  Its arrays are split out
    of the unscoped buffers on entry and put back at what the pipeline leaves on exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : (iprop((∃ r, prngReg c r) ∗ Pipeline.prefHeld (pcfgs (F := F) 1).pre c (fun _ => fullShare) (adm 1).1 ∗ Pipeline.scopedRest (Pipeline.pin (pcfgs (F := F)) adm 1).spec c) : sProp 𝕄)
        ⊢ Pipeline.ΦA spec1 c := by
      unfold Pipeline.ΦA
      iintro ⟨Hp, -, Hr⟩
      isplitl [Hr]; · iexact Hr
      iexact Hp
    exact hA.trans (R1.inv_in (V3 m ρ) c)
  hout c := by
    rw [Pipeline.ownSems0_none]
    have hA : (Pipeline.ΦA spec1 c : sProp 𝕄)
        ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (R1.inv_out (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Whole

end
-- ==== Proof.Spec.lean ====
/-
  The mathematics of one graph-attention layer without softmax, stated once over the argument arrays.

  Arguments: features `x` (8192 nodes × 512), weights `W` (512 × 256), an attention vector `a` (512 × 1, its first
  256 entries scoring a node as a source, its last 256 as a destination) and an integer adjacency matrix `adj`.

  * `hid`   — the hidden features `h = x · W`.
  * `score v i` — `h_i · v` for a 256-vector `v`; `src` is the score against `a[0:256]`, `dst` against `a[256:512]`; the
    raw attention of the pair `(i, j)` is `src i + dst j`.
  * `refOut` — row `i` of the result: the sum over all nodes `j` of the pair's coefficient (the raw attention where
    `adj i j > 0`, a large negative constant elsewhere) times `h_j`.
  * `accG H s1 s2 adj` — a row accumulated 512 columns at a time from ANY hidden-feature array `H`, source column `s1`
    and destination row `s2`: each block of columns contributes the edges' part `Σ (attention · mask) · H` and,
    separately, the constant times the non-edges' part `Σ (1 − mask) · H`.  `accUpTo` is `accG` at `hid`, `src`, `dst`;
    `accUpTo … 16` is the whole row.
-/
import Idealize.ShloMosaic.Lib.ValueIdx
import Idealize.ShloMosaic.PureOps.Ideal

noncomputable section

namespace Cert.Gat

open Idealize.ShloMosaic Idealize.ShloMosaic.ValueIdx

/-- The first half of the attention vector's rows. -/
def lo (f : Fin 256) : Fin 512 := ⟨f.val, Nat.lt_of_lt_of_le f.isLt (by decide)⟩
/-- The second half of the attention vector's rows. -/
def hi (f : Fin 256) : Fin 512 := ⟨256 + f.val, by have := f.isLt; omega⟩
/-- Column `q` of the `b`-th block of 512 columns. -/
def col (b : Fin 16) (q : Fin 512) : Fin 8192 := ⟨512 * b.val + q.val, by have := b.isLt; have := q.isLt; omega⟩

/-- The constant that stands for "no edge". -/
def negBig : EReal := Ideal.ofBits .f32 0xD9FFCB9E#32
/-- The accumulator's starting value. -/
def zero32 : EReal := Ideal.ofBits .f32 0x00000000#32
/-- The unit the complement of the mask is taken from. -/
def one16 : EReal := Ideal.ofBits .bf16 0x3F80#16

section Args

variable (x : (⟨2, ![8192, 512]⟩ : Shape).Idx → EReal) (W : (⟨2, ![512, 256]⟩ : Shape).Idx → EReal)
  (a : (⟨2, ![512, 1]⟩ : Shape).Idx → EReal)

/-- The hidden features `h = x · W`. -/
def hid (i : Fin 8192) (f : Fin 256) : EReal := ∑ k : Fin 512, x (ix2 i k) * W (ix2 k f)
/-- The hidden features as an array. -/
def hidArr : (⟨2, ![8192, 256]⟩ : Shape).Idx → EReal := fun j => hid x W (j 0) (j 1)
/-- A node's hidden features against a 256-vector. -/
def score (v : (⟨2, ![256, 1]⟩ : Shape).Idx → EReal) (i : Fin 8192) : EReal := ∑ f : Fin 256, hid x W i f * v (ix2 f (0 : Fin 1))
/-- The attention vector's first and second halves. -/
def aLo : (⟨2, ![256, 1]⟩ : Shape).Idx → EReal := fun j => a (ix2 (lo (j 0)) (0 : Fin 1))
def aHi : (⟨2, ![256, 1]⟩ : Shape).Idx → EReal := fun j => a (ix2 (hi (j 0)) (0 : Fin 1))
/-- A node's score as a source, and as a destination. -/
def src (i : Fin 8192) : EReal := score x W (aLo a) i
def dst (j : Fin 8192) : EReal := score x W (aHi a) j
/-- The source scores as a column, the destination scores as a row. -/
def srcCol : (⟨2, ![8192, 1]⟩ : Shape).Idx → EReal := fun j => src x W a (j 0)
def dstRow : (⟨2, ![1, 8192]⟩ : Shape).Idx → EReal := fun j => dst x W a (j 1)

end Args

section Adj

variable (adj : (⟨2, ![8192, 8192]⟩ : Shape).Idx → BitVec 32)

/-- Whether `(i, j)` is an edge, as the one-bit result of the signed comparison `adj i j > 0`. -/
def edgeBit (i j : Fin 8192) : BitVec 1 := IntOp.cmpi .sgt (adj (ix2 i j)) 0#32
/-- The mask as a number: 1 on an edge, 0 elsewhere. -/
def mask (i j : Fin 8192) : EReal := ((((edgeBit adj i j).setWidth 32).toInt : ℝ) : EReal)

variable (H : (⟨2, ![8192, 256]⟩ : Shape).Idx → EReal) (s1 : (⟨2, ![8192, 1]⟩ : Shape).Idx → EReal)
  (s2 : (⟨2, ![1, 8192]⟩ : Shape).Idx → EReal)

/-- One block of 512 columns added to an accumulator `s`: first the edges' part, then the constant times the
    non-edges' part. -/
def addBlockG (i : Fin 8192) (f : Fin 256) (b : Fin 16) (s : EReal) : EReal :=
  (s + ∑ q : Fin 512, ((s1 (ix2 i (0 : Fin 1)) + s2 (ix2 (0 : Fin 1) (col b q))) * mask adj i (col b q)) * H (ix2 (col b q) f))
    + negBig * ∑ q : Fin 512, (one16 - mask adj i (col b q)) * H (ix2 (col b q) f)

/-- The row accumulated over its first `n` blocks of columns. -/
def accG (i : Fin 8192) (f : Fin 256) : (n : ℕ) → n ≤ 16 → EReal
  | 0, _ => zero32
  | n + 1, h => addBlockG adj H s1 s2 i f ⟨n, h⟩ (accG i f n (Nat.le_of_succ_le h))

end Adj

variable (x : (⟨2, ![8192, 512]⟩ : Shape).Idx → EReal) (W : (⟨2, ![512, 256]⟩ : Shape).Idx → EReal)
  (a : (⟨2, ![512, 1]⟩ : Shape).Idx → EReal) (adj : (⟨2, ![8192, 8192]⟩ : Shape).Idx → BitVec 32)

/-- The reference's row: every column's coefficient times that column's hidden features. -/
def refOut (i : Fin 8192) (f : Fin 256) : EReal :=
  ∑ j : Fin 8192, Scalar.select (edgeBit adj i j) (src x W a i + dst x W a j) negBig * hid x W j f

/-- The row accumulated blockwise from the argument arrays. -/
def accUpTo (i : Fin 8192) (f : Fin 256) (n : ℕ) (h : n ≤ 16) : EReal :=
  accG adj (hidArr x W) (srcCol x W a) (dstRow x W a) i f n h

end Cert.Gat

end
-- ==== Proof.RefValue.lean ====
/-
  The reference's result, read at an index, is the specification's row.

  The reference computes the hidden features h = x · W, scores every node against the two halves of the attention
  vector (two slices of the vector, two products with h), adds the source scores along rows and the destination
  scores along columns (a broadcast of the column of source scores, a broadcast of the transposed column of
  destination scores), keeps that raw attention where the adjacency entry is positive and puts the constant
  elsewhere, and multiplies the resulting 8192 × 8192 coefficient matrix by h.  Read at (i, f) stage by stage:

    * the product x · W at (i, f) is the hidden feature of node i;
    * the product of h with a half of the attention vector at (i, 0) is node i's score against that half;
    * the sum of the two broadcasts at (i, j) is the source score of i plus the destination score of j;
    * the selected coefficient at (i, j) is that sum on an edge and the constant elsewhere;
    * the last product at (i, f) is the sum over all nodes j of the coefficient at (i, j) times h at (j, f).
-/
import proofs.«164384_j57698590654935_2_alg».proof.Proof.Gen.ReferenceIdeal.Read
import proofs.«164384_j57698590654935_2_alg».proof.Proof.Spec

noncomputable section

namespace Cert.Gat.Ref

open Idealize.ShloMosaic Idealize.ShloMosaic.ValueIdx Cert.ReferenceIdeal Cert.ReferenceIdeal.Read

variable (x0 : (⟨Cert.ReferenceIdeal.S8192x512, .f32⟩ : BufTy).Contents (Elt Ideal))
  (x1 : (⟨Cert.ReferenceIdeal.S512x256, .f32⟩ : BufTy).Contents (Elt Ideal))
  (x2 : (⟨Cert.ReferenceIdeal.S512x1, .f32⟩ : BufTy).Contents (Elt Ideal))
  (x3 : (⟨Cert.ReferenceIdeal.S8192x8192, .i32⟩ : BufTy).Contents (Elt Ideal))

/-- The product x · W at (i, f) is the hidden feature of node i. -/
theorem hid_apply (i : Fin 8192) (f : Fin 256) :
    val_main_v0 (F := Ideal) x0 x1 (ix2 i f) = Cert.Gat.hid x0 x1 i f := by
  rw [val_main_v0_apply]
  unfold Cert.Gat.hid
  refine Finset.sum_congr rfl fun k _ => ?_
  have el : lidx_main_v0 (ix2 i f) k = ix2 i k :=
    funext fun a => Fin.ext (by match a with | ⟨0, _⟩ => rfl | ⟨1, _⟩ => rfl)
  have er : ridx_main_v0 (ix2 i f) k = ix2 k f :=
    funext fun a => Fin.ext (by match a with | ⟨0, _⟩ => rfl | ⟨1, _⟩ => rfl)
  rw [el, er]

/-- The product of h with the first half of the attention vector at (i, 0) is node i's score as a source. -/
theorem src_apply (i : Fin 8192) :
    val_main_v3 (F := Ideal) x0 x1 x2 (ix2 i (0 : Fin 1)) = Cert.Gat.src x0 x1 x2 i := by
  rw [val_main_v3_apply]
  unfold Cert.Gat.src Cert.Gat.score
  refine Finset.sum_congr rfl fun k _ => ?_
  have el : lidx_main_v3 (ix2 i (0 : Fin 1)) k = ix2 i k :=
    funext fun a => Fin.ext (by match a with | ⟨0, _⟩ => rfl | ⟨1, _⟩ => rfl)
  have er : ridx_main_v3 (ix2 i (0 : Fin 1)) k = ix2 k (0 : Fin 1) :=
    funext fun a => Fin.ext (by match a with | ⟨0, _⟩ => rfl | ⟨1, _⟩ => rfl)
  have es : idx_main_v1 (ix2 k (0 : Fin 1)) = ix2 (Cert.Gat.lo k) (0 : Fin 1) :=
    funext fun a => Fin.ext (by match a with | ⟨0, _⟩ => rfl | ⟨1, _⟩ => rfl)
  rw [el, er, hid_apply, val_main_v1_apply, es]
  rfl

/-- The product of h with the second half of the attention vector at (j, 0) is node j's score as a destination. -/
theorem dst_apply (j : Fin 8192) :
    val_main_v4 (F := Ideal) x0 x1 x2 (ix2 j (0 : Fin 1)) = Cert.Gat.dst x0 x1 x2 j := by
  rw [val_main_v4_apply]
  unfold Cert.Gat.dst Cert.Gat.score
  refine Finset.sum_congr rfl fun k _ => ?_
  have el : lidx_main_v4 (ix2 j (0 : Fin 1)) k = ix2 j k :=
    funext fun a => Fin.ext (by match a with | ⟨0, _⟩ => rfl | ⟨1, _⟩ => rfl)
  have er : ridx_main_v4 (ix2 j (0 : Fin 1)) k = ix2 k (0 : Fin 1) :=
    funext fun a => Fin.ext (by match a with | ⟨0, _⟩ => rfl | ⟨1, _⟩ => rfl)
  have es : idx_main_v2 (ix2 k (0 : Fin 1)) = ix2 (Cert.Gat.hi k) (0 : Fin 1) :=
    funext fun a => Fin.ext (by match a with | ⟨0, _⟩ => rfl | ⟨1, _⟩ => rfl)
  rw [el, er, hid_apply, val_main_v2_apply, es]
  rfl

/-- The sum of the two broadcasts at (i, j) is the source score of i plus the destination score of j. -/
theorem att_apply (i j : Fin 8192) :
    val_main_v8 (F := Ideal) x0 x1 x2 (ix2 i j) = Cert.Gat.src x0 x1 x2 i + Cert.Gat.dst x0 x1 x2 j := by
  have e6 : idx_main_v6 (ix2 i j) = ix2 i (0 : Fin 1) :=
    funext fun a => Fin.ext (by match a with | ⟨0, _⟩ => rfl | ⟨1, _⟩ => rfl)
  have e7 : idx_main_v5 (idx_main_v7 (ix2 i j)) = ix2 j (0 : Fin 1) :=
    funext fun a => Fin.ext (by match a with | ⟨0, _⟩ => rfl | ⟨1, _⟩ => rfl)
  rw [val_main_v8_apply, val_main_v6_apply, val_main_v7_apply, val_main_v5_apply, e6, e7, src_apply, dst_apply]
  rfl

/-- The selected coefficient at (i, j): the raw attention on an edge, the constant elsewhere. -/
theorem coef_apply (i j : Fin 8192) :
    val_main_v11 (F := Ideal) x0 x1 x2 x3 (ix2 i j)
      = Scalar.select (Cert.Gat.edgeBit x3 i j) (Cert.Gat.src x0 x1 x2 i + Cert.Gat.dst x0 x1 x2 j) Cert.Gat.negBig := by
  rw [val_main_v11_apply, val_main_v10_apply, val_main_v9_apply, val_main_c_apply, val_main_call0_v0_apply,
    val_main_cst_apply, att_apply]
  rfl

/-- The reference's result is the specification's row, entry by entry. -/
theorem ref_eq :
    Cert.ReferenceIdeal.Read.val_main_v12 (F := Ideal) x0 x1 x2 x3 = fun i => Cert.Gat.refOut x0 x1 x2 x3 (i 0) (i 1) := by
  funext i
  obtain ⟨p, c, rfl⟩ : ∃ (p : Fin 8192) (c : Fin 256), i = ix2 p c := ⟨i 0, i 1, eq_ix2 i⟩
  rw [val_main_v12_apply]
  show _ = Cert.Gat.refOut x0 x1 x2 x3 p c
  unfold Cert.Gat.refOut
  refine Finset.sum_congr rfl fun k _ => ?_
  have el : lidx_main_v12 (ix2 p c) k = ix2 p k :=
    funext fun a => Fin.ext (by match a with | ⟨0, _⟩ => rfl | ⟨1, _⟩ => rfl)
  have er : ridx_main_v12 (ix2 p c) k = ix2 k c :=
    funext fun a => Fin.ext (by match a with | ⟨0, _⟩ => rfl | ⟨1, _⟩ => rfl)
  rw [el, er, coef_apply, hid_apply]

end Cert.Gat.Ref

end
-- ==== Proof.Law.lean ====
/-
  The law between the two arrangements of one graph-attention row.

  The reference sums, over all 8192 columns j, the pair's coefficient (the raw attention where (i, j) is an edge, the
  constant elsewhere) times column j's hidden features.  The blockwise row adds, for each of the 16 blocks of 512
  columns, the edges' part Σ (attention · mask) · h and then the constant times the non-edges' part Σ (1 − mask) · h.

  When every entry of the three float arguments is a real, the hidden features and both scores are reals (finite sums
  of products of reals), the mask is the real 0 or 1, the unit is 1, the starting value is 0 and the constant is some
  real N.  So both rows are coercions of real numbers and the law is an identity of real sums:
    * one block:   (s + Σ_q (e·p)·h) + N · Σ_q (1 − p)·h = s + Σ_q (if p = 1 then e else N) · h   for p ∈ {0, 1};
    * the fold of the first n blocks from 0 is the sum of those blocks' contributions;
    * the 16 blocks of 512 columns are all 8192 columns, through (b, q) ↦ 512·b + q.
-/
import proofs.«164384_j57698590654935_2_alg».proof.Proof.Spec
import Idealize.ShloMosaic.Lib.IdealHost

noncomputable section

namespace Cert.Gat

open Idealize.ShloMosaic Idealize.ShloMosaic.ValueIdx
open scoped BigOperators

/-! ## Reals inside the extended reals -/

/-- The coercion of a finite sum of reals is the sum of the coercions. -/
theorem coe_sum {ι : Type*} (s : Finset ι) (g : ι → ℝ) :
    ((∑ k ∈ s, g k : ℝ) : EReal) = ∑ k ∈ s, (g k : EReal) := by
  classical
  induction s using Finset.induction_on with
  | empty => simp
  | insert k s hk ih => rw [Finset.sum_insert hk, Finset.sum_insert hk, EReal.coe_add, ih]

/-- A pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  simp only [h, if_false]
  split_ifs <;> exact ⟨_, rfl⟩

/-- The constant that stands for "no edge" is a real. -/
theorem negBig_real : ∃ N : ℝ, negBig = (N : EReal) :=
  ieee_real 8 23 (0xD9FFCB9E#32 : BitVec 32) (by decide)

/-- The unit is one. -/
theorem one16_eq : one16 = ((1 : ℝ) : EReal) := by
  unfold one16; rw [Ideal.ofBits_one_bf16]; rfl

/-- The starting value is zero. -/
theorem zero32_eq : zero32 = ((0 : ℝ) : EReal) := by
  unfold zero32; rw [Ideal.ofBits_zero_f32]; rfl

/-! ## The mask is the real 0 or 1 -/

section Mask

variable (adj : (⟨2, ![8192, 8192]⟩ : Shape).Idx → BitVec 32)

/-- The mask as a real: 1 on an edge, 0 elsewhere. -/
def maskR (i j : Fin 8192) : ℝ := if edgeBit adj i j = 1#1 then 1 else 0

theorem mask_eq (i j : Fin 8192) : mask adj i j = (maskR adj i j : EReal) := by
  unfold mask maskR
  rcases BitVec.eq_zero_or_eq_one (edgeBit adj i j) with h | h
  · rw [h]
    have e : ((0#1 : BitVec 1).setWidth 32).toInt = 0 := by decide
    rw [e, if_neg (by decide)]; norm_num
  · rw [h]
    have e : ((1#1 : BitVec 1).setWidth 32).toInt = 1 := by decide
    rw [e, if_pos rfl]; norm_num

end Mask

/-! ## The hidden features and the scores are reals -/

section Reals

variable (x : (⟨2, ![8192, 512]⟩ : Shape).Idx → EReal) (W : (⟨2, ![512, 256]⟩ : Shape).Idx → EReal)

/-- With real features and weights every hidden feature is a real. -/
theorem hid_real (hx : ∀ i, ∃ r : ℝ, x i = (r : EReal)) (hW : ∀ i, ∃ r : ℝ, W i = (r : EReal)) :
    ∃ h : Fin 8192 → Fin 256 → ℝ, ∀ i f, hid x W i f = (h i f : EReal) := by
  choose rx hrx using hx
  choose rW hrW using hW
  refine ⟨fun i f => ∑ k : Fin 512, rx (ix2 i k) * rW (ix2 k f), fun i f => ?_⟩
  rw [coe_sum]; unfold hid
  exact Finset.sum_congr rfl fun k _ => by rw [hrx, hrW, EReal.coe_mul]

/-- With real hidden features, the score against a real vector is a real. -/
theorem score_real (h : Fin 8192 → Fin 256 → ℝ) (hh : ∀ i f, hid x W i f = (h i f : EReal))
    (v : (⟨2, ![256, 1]⟩ : Shape).Idx → EReal) (hv : ∀ j, ∃ r : ℝ, v j = (r : EReal)) :
    ∃ s : Fin 8192 → ℝ, ∀ i, score x W v i = (s i : EReal) := by
  choose rv hrv using hv
  refine ⟨fun i => ∑ f : Fin 256, h i f * rv (ix2 f (0 : Fin 1)), fun i => ?_⟩
  rw [coe_sum]; unfold score
  exact Finset.sum_congr rfl fun f _ => by rw [hh, hrv, EReal.coe_mul]

end Reals

/-! ## One block, the fold of the blocks, and all the columns -/

section Blocks

variable (adj : (⟨2, ![8192, 8192]⟩ : Shape).Idx → BitVec 32)
  (rH : (⟨2, ![8192, 256]⟩ : Shape).Idx → ℝ) (r1 : (⟨2, ![8192, 1]⟩ : Shape).Idx → ℝ)
  (r2 : (⟨2, ![1, 8192]⟩ : Shape).Idx → ℝ) (N : ℝ)

/-- Column j's contribution to entry (i, f) of the row: its coefficient (the attention on an edge, the constant
    elsewhere) times its hidden feature. -/
def termR (i : Fin 8192) (f : Fin 256) (j : Fin 8192) : ℝ :=
  (if edgeBit adj i j = 1#1 then r1 (ix2 i (0 : Fin 1)) + r2 (ix2 (0 : Fin 1) j) else N) * rH (ix2 j f)

/-- For a mask p that is 0 or 1: (e·p)·h + N·((1 − p)·h) = (if p = 1 then e else N)·h. -/
theorem term_split (i : Fin 8192) (f : Fin 256) (j : Fin 8192) :
    ((r1 (ix2 i (0 : Fin 1)) + r2 (ix2 (0 : Fin 1) j)) * maskR adj i j) * rH (ix2 j f)
      + N * ((1 - maskR adj i j) * rH (ix2 j f)) = termR adj rH r1 r2 N i f j := by
  unfold termR maskR
  by_cases h : edgeBit adj i j = 1#1
  · rw [if_pos h, if_pos h]; ring
  · rw [if_neg h, if_neg h]; ring

variable (H : (⟨2, ![8192, 256]⟩ : Shape).Idx → EReal) (s1 : (⟨2, ![8192, 1]⟩ : Shape).Idx → EReal)
  (s2 : (⟨2, ![1, 8192]⟩ : Shape).Idx → EReal)
  (hH : ∀ j, H j = (rH j : EReal)) (h1 : ∀ j, s1 j = (r1 j : EReal)) (h2 : ∀ j, s2 j = (r2 j : EReal))
  (hN : negBig = (N : EReal))

include hH h1 h2 hN

/-- One block added to a real accumulator adds the block's columns' contributions. -/
theorem addBlockG_real (i : Fin 8192) (f : Fin 256) (b : Fin 16) (acc : ℝ) :
    addBlockG adj H s1 s2 i f b (acc : EReal)
      = ((acc + ∑ q : Fin 512, termR adj rH r1 r2 N i f (col b q) : ℝ) : EReal) := by
  unfold addBlockG
  have eA : ∀ q : Fin 512, ((s1 (ix2 i (0 : Fin 1)) + s2 (ix2 (0 : Fin 1) (col b q))) * mask adj i (col b q)) * H (ix2 (col b q) f)
      = (((r1 (ix2 i (0 : Fin 1)) + r2 (ix2 (0 : Fin 1) (col b q))) * maskR adj i (col b q) * rH (ix2 (col b q) f) : ℝ) : EReal) := by
    intro q
    rw [h1, h2, hH, mask_eq, ← EReal.coe_add, ← EReal.coe_mul, ← EReal.coe_mul]
  have eB : ∀ q : Fin 512, (one16 - mask adj i (col b q)) * H (ix2 (col b q) f)
      = (((1 - maskR adj i (col b q)) * rH (ix2 (col b q) f) : ℝ) : EReal) := by
    intro q
    rw [one16_eq, hH, mask_eq, ← EReal.coe_sub, ← EReal.coe_mul]
  simp only [eA, eB]
  rw [← coe_sum, ← coe_sum, hN, ← EReal.coe_mul, ← EReal.coe_add, ← EReal.coe_add]
  refine congrArg _ ?_
  rw [Finset.mul_sum, add_assoc, ← Finset.sum_add_distrib]
  refine congrArg _ (Finset.sum_congr rfl fun q _ => ?_)
  exact term_split adj rH r1 r2 N i f (col b q)

omit hH h1 h2 hN in
/-- The sum over the blocks before n + 1 is the sum over the blocks before n plus block n. -/
theorem sum_blocks_succ (B : Fin 16 → ℝ) (n : ℕ) (hn : n < 16) :
    ∑ b : Fin 16, (if b.val < n + 1 then B b else 0)
      = (∑ b : Fin 16, if b.val < n then B b else 0) + B ⟨n, hn⟩ := by
  have e : ∀ b : Fin 16, (if b.val < n + 1 then B b else 0)
      = (if b.val < n then B b else 0) + (if b = ⟨n, hn⟩ then B b else 0) := by
    intro b
    by_cases c1 : b.val < n
    · have c2 : b ≠ ⟨n, hn⟩ := fun c => by rw [c] at c1; exact lt_irrefl _ c1
      rw [if_pos c1, if_pos (Nat.lt_succ_of_lt c1), if_neg c2, add_zero]
    · by_cases c2 : b = ⟨n, hn⟩
      · subst c2; rw [if_neg c1, if_pos (Nat.lt_succ_self _), if_pos rfl, zero_add]
      · have c3 : ¬ b.val < n + 1 := fun c => c2 (Fin.ext (by show b.val = n; omega))
        rw [if_neg c1, if_neg c3, if_neg c2, add_zero]
  simp only [e, Finset.sum_add_distrib, Finset.sum_ite_eq', Finset.mem_univ, if_true]

/-- The row accumulated over its first n blocks is the sum of those blocks' columns' contributions. -/
theorem accG_real (i : Fin 8192) (f : Fin 256) (n : ℕ) (hn : n ≤ 16) :
    accG adj H s1 s2 i f n hn
      = ((∑ b : Fin 16, if b.val < n then ∑ q : Fin 512, termR adj rH r1 r2 N i f (col b q) else 0 : ℝ) : EReal) := by
  induction n with
  | zero =>
    show zero32 = _
    rw [zero32_eq]
    refine congrArg _ ?_
    exact (Finset.sum_eq_zero fun b _ => if_neg (Nat.not_lt_zero _)).symm
  | succ n ih =>
    show addBlockG adj H s1 s2 i f ⟨n, hn⟩ (accG adj H s1 s2 i f n (Nat.le_of_succ_le hn)) = _
    rw [ih (Nat.le_of_succ_le hn), addBlockG_real adj rH r1 r2 N H s1 s2 hH h1 h2 hN,
      sum_blocks_succ (fun b => ∑ q : Fin 512, termR adj rH r1 r2 N i f (col b q)) n hn]

end Blocks

/-- The 16 blocks of 512 columns are the 8192 columns. -/
def colEquiv : Fin 16 × Fin 512 ≃ Fin 8192 where
  toFun p := col p.1 p.2
  invFun j := (⟨j.val / 512, by have := j.isLt; omega⟩, ⟨j.val % 512, Nat.mod_lt _ (by decide)⟩)
  left_inv p := by
    rcases p with ⟨b, q⟩
    have := q.isLt
    exact Prod.ext (Fin.ext (by show (512 * b.val + q.val) / 512 = b.val; omega))
      (Fin.ext (by show (512 * b.val + q.val) % 512 = q.val; omega))
  right_inv j := Fin.ext (by show 512 * (j.val / 512) + j.val % 512 = j.val; omega)

/-- A sum over the blocks of the sums over each block's columns is the sum over all columns. -/
theorem sum_col (T : Fin 8192 → ℝ) : ∑ b : Fin 16, ∑ q : Fin 512, T (col b q) = ∑ j : Fin 8192, T j :=
  (Fintype.sum_prod_type' (fun b q => T (col b q))).symm.trans (Equiv.sum_comp colEquiv T)

/-! ## The law -/

section Law

variable (x : (⟨2, ![8192, 512]⟩ : Shape).Idx → EReal) (W : (⟨2, ![512, 256]⟩ : Shape).Idx → EReal)
  (a : (⟨2, ![512, 1]⟩ : Shape).Idx → EReal) (adj : (⟨2, ![8192, 8192]⟩ : Shape).Idx → BitVec 32)

/-- With real arguments, the row accumulated over all 16 blocks of columns is the reference's row. -/
theorem accUpTo_eq_refOut (hx : ∀ i, ∃ r : ℝ, x i = (r : EReal)) (hW : ∀ i, ∃ r : ℝ, W i = (r : EReal))
    (ha : ∀ i, ∃ r : ℝ, a i = (r : EReal)) (i : Fin 8192) (f : Fin 256) :
    accUpTo x W a adj i f 16 (le_refl 16) = refOut x W a adj i f := by
  obtain ⟨h, hh⟩ := hid_real x W hx hW
  obtain ⟨s, hs⟩ := score_real x W h hh (aLo a) (fun j => ha _)
  obtain ⟨d, hd⟩ := score_real x W h hh (aHi a) (fun j => ha _)
  obtain ⟨N, hN⟩ := negBig_real
  unfold accUpTo
  rw [accG_real adj (fun j => h (j 0) (j 1)) (fun j => s (j 0)) (fun j => d (j 1)) N
    (hidArr x W) (srcCol x W a) (dstRow x W a) (fun j => hh _ _) (fun j => hs _) (fun j => hd _) hN i f 16 (le_refl 16)]
  rw [Finset.sum_congr rfl (fun (b : Fin 16) _ => if_pos b.isLt), sum_col, coe_sum]
  unfold refOut
  refine Finset.sum_congr rfl fun j _ => ?_
  unfold termR
  show _ = Scalar.select (edgeBit adj i j) (src x W a i + dst x W a j) negBig * hid x W j f
  rw [EReal.coe_mul, hh j f]
  refine congrArg (· * _) ?_
  rcases BitVec.eq_zero_or_eq_one (edgeBit adj i j) with c | c
  · rw [c, select_zero, if_neg (by decide), hN]
  · rw [c, select_one, if_pos rfl, EReal.coe_add]
    show ((s i : ℝ) : EReal) + ((d j : ℝ) : EReal) = _
    exact congrArg₂ _ (hs i).symm (hd j).symm

end Law

end Cert.Gat

end
-- ==== Proof.Finite.lean ====
/-
  From the precondition to "every entry of the three float arguments is a real".

  The precondition computes, for each float argument, the comparison |z| < +∞ at every entry z, reduces each array of
  comparison bits by "and" into one bit, and asks that the conjunction of the three bits is 1.  So each of the three
  bits is 1, so every comparison bit is 1, so every entry z has max(z, −z) < +∞: z is neither +∞ nor −∞, hence a real.
-/
import proofs.«164384_j57698590654935_2_alg».proof.Defs
import Idealize.ShloMosaic.Lib.ReduceAll
import Idealize.ShloMosaic.Lib.ValueIdx
import Idealize.ShloMosaic.PureOps.Ideal.Laws

noncomputable section

namespace Cert.Gat

open Idealize.ShloMosaic Idealize.ShloMosaic.ValueIdx

/-- The scalar shape has one index. -/
instance subsingleton_scalar_idx : Subsingleton Cert.Pre_finite_inputs.S_.Idx :=
  ⟨fun a b => funext fun d => d.elim0⟩

/-- The f32 pattern 0x7F800000 is +∞. -/
theorem ofBits_inf_f32 : Ideal.ofBits .f32 0x7F800000#32 = (⊤ : EReal) := by
  simp [Ideal.ofBits, Ideal.ieee]

/-- An extended real whose absolute value max(z, −z) compares below +∞ is a real. -/
theorem real_of_abs_lt_inf (z : EReal)
    (h : Ideal.cmp .olt (max z (-z)) (Ideal.ofBits .f32 0x7F800000#32) = 1#1) : ∃ r : ℝ, z = (r : EReal) := by
  rw [ofBits_inf_f32] at h
  have hlt : max z (-z) < ⊤ := by
    by_contra hc
    have : Ideal.cmp .olt (max z (-z)) ⊤ = 0#1 := by simp [Ideal.cmp, hc]
    rw [this] at h
    exact absurd h (by decide)
  induction z using EReal.rec with
  | bot => exact absurd hlt (by simp)
  | coe r => exact ⟨r, rfl⟩
  | top => exact absurd hlt (by simp)

/-- If the "and" of the comparisons |x i| < +∞ over a whole array is 1, every entry of the array is a real. -/
theorem all_real {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hS : 0 < Cert.Pre_finite_inputs.S_.numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hS ix0 = 1#1)
    (i : S.Idx) : ∃ r : ℝ, x i = (r : EReal) :=
  real_of_abs_lt_inf (x i) (Host.reduce_andi_all _ _ hr hS ix0 e i)

/-- Under the precondition every entry of the three float arguments is a real, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have e := congrFun (h c) ix0
  dsimp only [Cert.Pre_finite_inputs.fn] at e
  obtain ⟨e01, e2⟩ := IntOp.andi_eq_one.1 e
  obtain ⟨e0, e1⟩ := IntOp.andi_eq_one.1 e01
  exact ⟨fun i => all_real _ _ _ _ e0 i, fun i => all_real _ _ _ _ e1 i, fun i => all_real _ _ _ _ e2 i⟩

end Cert.Gat

end
-- ==== Proof.Assemble.lean ====
/-
  The claims assembled.

  The three frames: each kernel program's is the whole-program run read at the argument arrays; the reference's is its
  run with the result dropped.  The algebraic claim: the kernel program ends with its result array holding the row
  accumulated block by block, the reference with the row summed at once, and under the precondition — every float input
  a real number — the two are one function (distributivity over the reals: a block's edges' part plus the constant
  times its non-edges' part is the block's part of the one sum).
-/
import proofs.«164384_j57698590654935_2_alg».proof.Proof.Whole
import proofs.«164384_j57698590654935_2_alg».proof.Proof.WordWhole
import proofs.«164384_j57698590654935_2_alg».proof.Proof.RefValue
import proofs.«164384_j57698590654935_2_alg».proof.Proof.Law
import proofs.«164384_j57698590654935_2_alg».proof.Proof.Finite
import proofs.«164384_j57698590654935_2_alg».proof.Proof.Gen.ReferenceIdeal.Run
import proofs.«164384_j57698590654935_2_alg».proof.Proof.Gen.ReferenceIdeal.Read
import proofs.«164384_j57698590654935_2_alg».proof.Proof.Gen.Kernel
import proofs.«164384_j57698590654935_2_alg».proof.Proof.Gen.KernelIdeal
import proofs.«164384_j57698590654935_2_alg».proof.Proof.Gen.ReferenceIdeal
import proofs.«164384_j57698590654935_2_alg».proof.Proof.Gen.Pre_finite_inputs
import proofs.«164384_j57698590654935_2_alg».proof.Defs

noncomputable section

namespace Cert.Proof.Claims

open Idealize.ShloMosaic Idealize.ShloMosaic.TcCoe Idealize.SL.Sem

theorem frame_word : Cert.frame_Kernel := fun m ρ _ => Cert.Kernel.Whole.frame (F := Bits) m ρ
theorem frame_ideal : Cert.frame_KernelIdeal := fun m ρ _ => Cert.KernelIdeal.Whole.frame (F := Ideal) m ρ
theorem frame_ref : Cert.frame_ReferenceIdeal := fun m ρ _ =>
  (θ_run Cert.ReferenceIdeal.defs _ _).mono (fun _ h c => (h c).2) (Cert.ReferenceIdeal.Value.run (F := Ideal) m ρ)

/-- The result array of the kernel program, as a function of the launch memory's arguments. -/
def outOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v4) :=
  fun j => Cert.Gat.accUpTo (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (j 0) (j 1) 16 (le_refl 16)

/-- The algebraic claim, from what the kernel program's result array holds after its run. -/
theorem algebraic_of
    (hout : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Whole.W4 (F := Ideal) m ρ c (Proc.devRef .tc Cert.KernelIdeal.main_v4) = outOf m c) :
    Cert.algebraic_KernelIdeal_ReferenceIdeal := by
  intro m ρ m' ρ' hpre hagree
  refine ⟨fun c => outOf m c, ?_, ?_⟩
  · refine (θ_run Cert.KernelIdeal.defs _ _).mono (fun _ h c => ⟨?_, ?_, ?_, ?_, ?_⟩) (Cert.KernelIdeal.Whole.run_all (F := Ideal) m ρ)
    · exact (h c _ (Cert.KernelIdeal.Whole.mem_uc Cert.KernelIdeal.main_v4 (by decide))).trans (hout m ρ c)
    · exact (h c _ (Cert.KernelIdeal.Whole.mem_uc Cert.KernelIdeal.main_arg0 (by decide))).trans (Cert.KernelIdeal.Whole.W4_main_arg0 m ρ c)
    · exact (h c _ (Cert.KernelIdeal.Whole.mem_uc Cert.KernelIdeal.main_arg1 (by decide))).trans (Cert.KernelIdeal.Whole.W4_main_arg1 m ρ c)
    · exact (h c _ (Cert.KernelIdeal.Whole.mem_uc Cert.KernelIdeal.main_arg2 (by decide))).trans (Cert.KernelIdeal.Whole.W4_main_arg2 m ρ c)
    · exact (h c _ (Cert.KernelIdeal.Whole.mem_uc Cert.KernelIdeal.main_arg3 (by decide))).trans (Cert.KernelIdeal.Whole.W4_main_arg3 m ρ c)
  · refine (θ_run Cert.ReferenceIdeal.defs _ _).mono (fun _ h c => ⟨?_, (h c).2⟩) (Cert.ReferenceIdeal.Value.run (F := Ideal) m' ρ')
    have hreal := Cert.Gat.real_of_pre m hpre c
    rw [(h c).1, Cert.ReferenceIdeal.Read.val_main_v12_eq, Cert.Gat.Ref.ref_eq, (hagree c).1, (hagree c).2.1, (hagree c).2.2.1, (hagree c).2.2.2]
    funext j
    exact (Cert.Gat.accUpTo_eq_refOut _ _ _ _ hreal.1 hreal.2.1 hreal.2.2 (j 0) (j 1)).symm

end Cert.Proof.Claims

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.Region0Value.lean ====
/-
  What the first kernel call leaves in its three output arrays, as functions of the arrays it reads.

  Read at the ideal values, the body's three stored values at an entry of a block are sums: the hidden features
  \`Σ_k x(p,k) · W(k,f)\`, and the two scores \`Σ_f (Σ_k x(p,k) · W(k,f)) · a(f)\` against the two halves of the attention
  vector (rounding to the storage type is the identity on ideal values, a shape cast of a shape to itself is the
  identity, and a matrix product into a zero accumulator is the sum over the contracted coordinate).

  A block of 1024 rows sits in its array at row \`1024 · t + p\` for the grid point \`t\`; the weights and the two halves
  of the attention vector are read whole at every point.  So what point \`t\` writes back is block \`t\` of one
  whole-array function; the 8 blocks cover all 8192 rows (row \`r\` is in the block of point \`r / 1024\`); hence each
  output array ends holding that function.
-/
import proofs.«164384_j57698590654935_2_alg».proof.Proof.Region0
import proofs.«164384_j57698590654935_2_alg».proof.Proof.Spec
import proofs.«164384_j57698590654935_2_alg».proof.Proof.LibRowOps
import Idealize.ShloMosaic.Lib.Pipeline.Value

set_option maxRecDepth 16384

noncomputable section

namespace Cert.KernelIdeal.R0V

open Idealize.ShloMosaic Idealize.ShloMosaic.TcCoe Idealize.ShloMosaic.ValueIdx
open Idealize.SL.Sem
open Cert.KernelIdeal.Gen

/-! ## Which operand coordinate is the row, the column and the contracted one -/

/-- In \`x · W\` the left operand's row is the result's row, -/
theorem xW_lhs_row (j : S1024x256.Idx) (q : dot_S1024x512_S512x256_S1024x256_1_0_0_1_n_n.contr.Idx) :
    (dot_S1024x512_S512x256_S1024x256_1_0_0_1_n_n.lhsIdx j q 0).val = (j 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
/-- its column the contracted coordinate, -/
theorem xW_lhs_col (j : S1024x256.Idx) (q : dot_S1024x512_S512x256_S1024x256_1_0_0_1_n_n.contr.Idx) :
    (dot_S1024x512_S512x256_S1024x256_1_0_0_1_n_n.lhsIdx j q 1).val = (q ⟨0, by decide⟩).val :=
  dot_S1024x512_S512x256_S1024x256_1_0_0_1_n_n.lhsIdx_val_of_single rfl j q
/-- the right operand's row the contracted coordinate, -/
theorem xW_rhs_row (j : S1024x256.Idx) (q : dot_S1024x512_S512x256_S1024x256_1_0_0_1_n_n.contr.Idx) :
    (dot_S1024x512_S512x256_S1024x256_1_0_0_1_n_n.rhsIdx j q 0).val = (q ⟨0, by decide⟩).val :=
  dot_S1024x512_S512x256_S1024x256_1_0_0_1_n_n.rhsIdx_val_of_single rfl j q
/-- and its column the result's column. -/
theorem xW_rhs_col (j : S1024x256.Idx) (q : dot_S1024x512_S512x256_S1024x256_1_0_0_1_n_n.contr.Idx) :
    (dot_S1024x512_S512x256_S1024x256_1_0_0_1_n_n.rhsIdx j q 1).val = (j 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The same four facts for \`h · a\`. -/
theorem ha_lhs_row (j : S1024x1.Idx) (q : dot_S1024x256_S256x1_S1024x1_1_0_0_1_n_n.contr.Idx) :
    (dot_S1024x256_S256x1_S1024x1_1_0_0_1_n_n.lhsIdx j q 0).val = (j 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
theorem ha_lhs_col (j : S1024x1.Idx) (q : dot_S1024x256_S256x1_S1024x1_1_0_0_1_n_n.contr.Idx) :
    (dot_S1024x256_S256x1_S1024x1_1_0_0_1_n_n.lhsIdx j q 1).val = (q ⟨0, by decide⟩).val :=
  dot_S1024x256_S256x1_S1024x1_1_0_0_1_n_n.lhsIdx_val_of_single rfl j q
theorem ha_rhs_row (j : S1024x1.Idx) (q : dot_S1024x256_S256x1_S1024x1_1_0_0_1_n_n.contr.Idx) :
    (dot_S1024x256_S256x1_S1024x1_1_0_0_1_n_n.rhsIdx j q 0).val = (q ⟨0, by decide⟩).val :=
  dot_S1024x256_S256x1_S1024x1_1_0_0_1_n_n.rhsIdx_val_of_single rfl j q
theorem ha_rhs_col (j : S1024x1.Idx) (q : dot_S1024x256_S256x1_S1024x1_1_0_0_1_n_n.contr.Idx) :
    (dot_S1024x256_S256x1_S1024x1_1_0_0_1_n_n.rhsIdx j q 1).val = (j 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-! ## The stored values at an entry of a block -/

/-- The hidden features of a block at row \`p\`, column \`f\`: the sum over \`k\` of \`x(p,k) · W(k,f)\`. -/
theorem hid_at (x0 : FVec Ideal S1024x512 .f32) (x1 : FVec Ideal S512x256 .f32) (p : Fin 1024) (f : Fin 256) :
    k0_pay1 (F := Ideal) x0 x1 (ix2 p f) = ∑ k : Fin 512, x0 (ix2 p k) * x1 (ix2 k f) := by
  unfold k0_pay1
  exact Cert.LibRowOps.matmul_zero_apply dot_S1024x512_S512x256_S1024x256_1_0_0_1_n_n none _ _ rfl rfl xW_lhs_row xW_lhs_col xW_rhs_row xW_rhs_col p f

/-- The first score of a block at row \`p\`: the hidden features of row \`p\` against the vector \`x2\`. -/
theorem src_at (x0 : FVec Ideal S1024x512 .f32) (x1 : FVec Ideal S512x256 .f32) (x2 : FVec Ideal S256x1 .f32) (p : Fin 1024) :
    k0_pay2 (F := Ideal) x0 x1 x2 (ix2 p (0 : Fin 1))
      = ∑ f : Fin 256, (∑ k : Fin 512, x0 (ix2 p k) * x1 (ix2 k f)) * x2 (ix2 f (0 : Fin 1)) := by
  unfold k0_pay2
  refine (Cert.LibRowOps.matmul_zero_apply dot_S1024x256_S256x1_S1024x1_1_0_0_1_n_n none _ _ rfl rfl ha_lhs_row ha_lhs_col ha_rhs_row ha_rhs_col p (0 : Fin 1)).trans ?_
  refine Finset.sum_congr rfl fun f _ => ?_
  rw [hid_at, truncf_apply, shapeCast_self]

/-- The second score of a block at row \`p\`: the same against the vector \`x3\`. -/
theorem dst_at (x0 : FVec Ideal S1024x512 .f32) (x1 : FVec Ideal S512x256 .f32) (x3 : FVec Ideal S256x1 .f32) (p : Fin 1024) :
    k0_pay3 (F := Ideal) x0 x1 x3 (ix2 p (0 : Fin 1))
      = ∑ f : Fin 256, (∑ k : Fin 512, x0 (ix2 p k) * x1 (ix2 k f)) * x3 (ix2 f (0 : Fin 1)) := by
  unfold k0_pay3
  refine (Cert.LibRowOps.matmul_zero_apply dot_S1024x256_S256x1_S1024x1_1_0_0_1_n_n none _ _ rfl rfl ha_lhs_row ha_lhs_col ha_rhs_row ha_rhs_col p (0 : Fin 1)).trans ?_
  refine Finset.sum_congr rfl fun f _ => ?_
  rw [hid_at, truncf_apply, shapeCast_self]

/-! ## From the blocks to the arrays, entry by entry

Stated over any block contents \`x0 … x3\` and any array contents \`X\`, \`W\`, \`A\`: when row \`p\` of the feature block is
row \`i 0\` of \`X\` and the other blocks are their arrays, the stored value at \`(p, ·)\` is the specification's at \`i\`. -/

theorem hid_point (X : S8192x512.Idx → EReal) (W : S512x256.Idx → EReal)
    (x0 : FVec Ideal S1024x512 .f32) (x1 : FVec Ideal S512x256 .f32) (p : Fin 1024) (f : Fin 256) (i : S8192x256.Idx)
    (h0 : ∀ k : Fin 512, x0 (ix2 p k) = X (ix2 (i 0) k))
    (h1 : ∀ k : Fin 512, x1 (ix2 k f) = W (ix2 k (i 1))) :
    k0_pay1 (F := Ideal) x0 x1 (ix2 p f) = Cert.Gat.hidArr X W i := by
  rw [hid_at]
  show _ = ∑ k : Fin 512, X (ix2 (i 0) k) * W (ix2 k (i 1))
  exact Finset.sum_congr rfl fun k _ => by rw [h0, h1]

theorem src_point (X : S8192x512.Idx → EReal) (W : S512x256.Idx → EReal) (A : S256x1.Idx → EReal)
    (x0 : FVec Ideal S1024x512 .f32) (x1 : FVec Ideal S512x256 .f32) (x2 : FVec Ideal S256x1 .f32)
    (p : Fin 1024) (z : Fin 1) (i : S8192x1.Idx)
    (h0 : ∀ k : Fin 512, x0 (ix2 p k) = X (ix2 (i 0) k))
    (h1 : ∀ (k : Fin 512) (f : Fin 256), x1 (ix2 k f) = W (ix2 k f))
    (h2 : ∀ f : Fin 256, x2 (ix2 f (0 : Fin 1)) = A (ix2 f (0 : Fin 1))) :
    k0_pay2 (F := Ideal) x0 x1 x2 (ix2 p z) = Cert.Gat.score X W A (i 0) := by
  obtain rfl : z = 0 := Subsingleton.elim _ _
  rw [src_at]
  show _ = ∑ f : Fin 256, (∑ k : Fin 512, X (ix2 (i 0) k) * W (ix2 k f)) * A (ix2 f (0 : Fin 1))
  refine Finset.sum_congr rfl fun f _ => ?_
  rw [h2]
  refine congrArg (· * A (ix2 f (0 : Fin 1))) ?_
  exact Finset.sum_congr rfl fun k _ => by rw [h0, h1]

theorem dst_point (X : S8192x512.Idx → EReal) (W : S512x256.Idx → EReal) (A : S256x1.Idx → EReal)
    (x0 : FVec Ideal S1024x512 .f32) (x1 : FVec Ideal S512x256 .f32) (x3 : FVec Ideal S256x1 .f32)
    (p : Fin 1024) (z : Fin 1) (i : S8192x1.Idx)
    (h0 : ∀ k : Fin 512, x0 (ix2 p k) = X (ix2 (i 0) k))
    (h1 : ∀ (k : Fin 512) (f : Fin 256), x1 (ix2 k f) = W (ix2 k f))
    (h3 : ∀ f : Fin 256, x3 (ix2 f (0 : Fin 1)) = A (ix2 f (0 : Fin 1))) :
    k0_pay3 (F := Ideal) x0 x1 x3 (ix2 p z) = Cert.Gat.score X W A (i 0) := by
  obtain rfl : z = 0 := Subsingleton.elim _ _
  rw [dst_at]
  show _ = ∑ f : Fin 256, (∑ k : Fin 512, X (ix2 (i 0) k) * W (ix2 k f)) * A (ix2 f (0 : Fin 1))
  refine Finset.sum_congr rfl fun f _ => ?_
  rw [h3]
  refine congrArg (· * A (ix2 f (0 : Fin 1))) ?_
  exact Finset.sum_congr rfl fun k _ => by rw [h0, h1]

/-! ## The block indices over the grid -/

theorem zeros : (![0, 0] : Fin 2 → Nat) = fun _ => 0 := funext fun a => by fin_cases a <;> rfl

/-- At grid point \`t\` the features and the three outputs are at block \`t\` of their rows and block 0 of their columns;
    the weights and both halves of the attention vector are at block 0 on both axes. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

-- the core's buffer contents when the call is entered
variable (V : (c : Dev nD) → (b : Ref sig .tc) → Buf (Elt Ideal) ((c : Thread nD τ).loc b))

/-! ## The hidden features -/

/-- What grid point \`t\` writes back to the hidden-feature array is block \`t\` of \`x · W\`. -/
theorem flushed_hid (c : Dev nD) (t : Fin cfg0.N) :
    (R0.dat0 (F := Ideal) V c).flushed 4 t
      = ((cfg0.win 4).blk t).view.read (Elt Ideal) (Cert.Gat.hidArr (V c main_arg0) (V c main_arg1)) := by
  show (cfg0.win 4).cut (grid0.coords t) ((R0.dat0 V c).after 4 t) = _
  rw [R0.after0_4]
  unfold R0.hidOut
  rw [View.canon_unit_zero zeros]
  simp only [View.ld_unit_zero (S := S1024x512) zeros, View.ld_unit_zero (S := S512x256) zeros]
  obtain ⟨e00, e01, e10, e11, e20, e21, e30, e31, e40, e41, e50, e51, e60, e61⟩ := index_facts t
  funext j
  obtain ⟨p, f, rfl⟩ : ∃ (p : Fin 1024) (f : Fin 256), j = ix2 p f := ⟨j 0, j 1, eq_ix2 j⟩
  refine hid_point (V c main_arg0) (V c main_arg1) _ _ p f (((cfg0.win 4).blk t).view.emb (ix2 p f)) (fun k => ?_) (fun k => ?_)
  · show V c main_arg0 (((cfg0.win 0).blk t).view.emb (ix2 p k)) = V c main_arg0 (ix2 (((cfg0.win 4).blk t).view.emb (ix2 p f) 0) k)
    refine congrArg _ (funext fun a => Fin.ext ?_)
    match a with
    | ⟨0, _⟩ => show win0_0.index t (0 : Fin 2) * 1024 + 1 * p.val = win0_4.index t (0 : Fin 2) * 1024 + 1 * p.val; omega
    | ⟨1, _⟩ => show win0_0.index t (1 : Fin 2) * 512 + 1 * k.val = k.val; omega
  · show V c main_arg1 (((cfg0.win 1).blk t).view.emb (ix2 k f)) = V c main_arg1 (ix2 k (((cfg0.win 4).blk t).view.emb (ix2 p f) 1))
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * f.val = win0_4.index t (1 : Fin 2) * 256 + 1 * f.val; omega

/-- An entry of the hidden-feature array is in point \`t\`'s block iff each coordinate is in the block's range. -/
theorem mem_blk_hid (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2_0).slice (win0_4.rect t)).set ↔ _
  rw [View.set_slice_whole, Rect.mem_set_unit]
  exact Iff.rfl

/-- Every entry is in the block of the point its row divided by 1024 names. -/
theorem cover_hid (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by omega⟩, rfl⟩
  obtain ⟨e00, e01, e10, e11, e20, e21, e30, e31, e40, e41, e50, e51, e60, e61⟩ := index_facts t
  refine ⟨t, flush0_4 t, ?_⟩
  rw [mem_blk_hid]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- The hidden-feature array after the call is \`x · W\` of the arrays the call read. -/
theorem arr0_4 (c : Dev nD) :
    (R0.dat0 (F := Ideal) V c).arrAt 4 cfg0.N = Cert.Gat.hidArr (V c main_arg0) (V c main_arg1) :=
  (R0.dat0 V c).arrAt_eq_of_cover 4 _ (fun t _ => flushed_hid V c t) cover_hid

/-! ## The first score column -/

/-- What grid point \`t\` writes back to the first score column is block \`t\` of the scores against \`a₁\`. -/
theorem flushed_src (c : Dev nD) (t : Fin cfg0.N) :
    (R0.dat0 (F := Ideal) V c).flushed 5 t
      = ((cfg0.win 5).blk t).view.read (Elt Ideal) (fun j : S8192x1.Idx => Cert.Gat.score (V c main_arg0) (V c main_arg1) (V c main_v0) (j 0)) := by
  show (cfg0.win 5).cut (grid0.coords t) ((R0.dat0 V c).after 5 t) = _
  rw [R0.after0_5]
  unfold R0.srcOut
  rw [View.canon_unit_zero zeros]
  simp only [View.ld_unit_zero (S := S1024x512) zeros, View.ld_unit_zero (S := S512x256) zeros, View.ld_unit_zero (S := S256x1) zeros]
  obtain ⟨e00, e01, e10, e11, e20, e21, e30, e31, e40, e41, e50, e51, e60, e61⟩ := index_facts t
  funext j
  obtain ⟨p, z, rfl⟩ : ∃ (p : Fin 1024) (z : Fin 1), j = ix2 p z := ⟨j 0, j 1, eq_ix2 j⟩
  refine src_point (V c main_arg0) (V c main_arg1) (V c main_v0) _ _ _ p z (((cfg0.win 5).blk t).view.emb (ix2 p z)) (fun k => ?_) (fun k f => ?_) (fun f => ?_)
  · show V c main_arg0 (((cfg0.win 0).blk t).view.emb (ix2 p k)) = V c main_arg0 (ix2 (((cfg0.win 5).blk t).view.emb (ix2 p z) 0) k)
    refine congrArg _ (funext fun a => Fin.ext ?_)
    match a with
    | ⟨0, _⟩ => show win0_0.index t (0 : Fin 2) * 1024 + 1 * p.val = win0_5.index t (0 : Fin 2) * 1024 + 1 * p.val; omega
    | ⟨1, _⟩ => show win0_0.index t (1 : Fin 2) * 512 + 1 * k.val = k.val; omega
  · show V c main_arg1 (((cfg0.win 1).blk t).view.emb (ix2 k f)) = V c main_arg1 (ix2 k f)
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * f.val = f.val; omega
  · show V c main_v0 (((cfg0.win 2).blk t).view.emb (ix2 f (0 : Fin 1))) = V c main_v0 (ix2 f (0 : Fin 1))
    refine congrArg _ (funext fun a => Fin.ext ?_)
    match a with
    | ⟨0, _⟩ => show win0_2.index t (0 : Fin 2) * 256 + 1 * f.val = f.val; omega
    | ⟨1, _⟩ => show win0_2.index t (1 : Fin 2) * 1 + 1 * 0 = 0; omega

theorem mem_blk_src (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

theorem cover_src (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨e00, e01, e10, e11, e20, e21, e30, e31, e40, e41, e50, e51, e60, e61⟩ := index_facts t
  refine ⟨t, flush0_5 t, ?_⟩
  rw [mem_blk_src]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- The first score column after the call: every node's hidden features against \`a₁\`. -/
theorem arr0_5 (c : Dev nD) :
    (R0.dat0 (F := Ideal) V c).arrAt 5 cfg0.N = fun j => Cert.Gat.score (V c main_arg0) (V c main_arg1) (V c main_v0) (j 0) :=
  (R0.dat0 V c).arrAt_eq_of_cover 5 _ (fun t _ => flushed_src V c t) cover_src

/-! ## The second score column -/

/-- What grid point \`t\` writes back to the second score column is block \`t\` of the scores against \`a₂\`. -/
theorem flushed_dst (c : Dev nD) (t : Fin cfg0.N) :
    (R0.dat0 (F := Ideal) V c).flushed 6 t
      = ((cfg0.win 6).blk t).view.read (Elt Ideal) (fun j : S8192x1.Idx => Cert.Gat.score (V c main_arg0) (V c main_arg1) (V c main_v1) (j 0)) := by
  show (cfg0.win 6).cut (grid0.coords t) ((R0.dat0 V c).after 6 t) = _
  rw [R0.after0_6]
  unfold R0.dstOut
  rw [View.canon_unit_zero zeros]
  simp only [View.ld_unit_zero (S := S1024x512) zeros, View.ld_unit_zero (S := S512x256) zeros, View.ld_unit_zero (S := S256x1) zeros]
  obtain ⟨e00, e01, e10, e11, e20, e21, e30, e31, e40, e41, e50, e51, e60, e61⟩ := index_facts t
  funext j
  obtain ⟨p, z, rfl⟩ : ∃ (p : Fin 1024) (z : Fin 1), j = ix2 p z := ⟨j 0, j 1, eq_ix2 j⟩
  refine dst_point (V c main_arg0) (V c main_arg1) (V c main_v1) _ _ _ p z (((cfg0.win 6).blk t).view.emb (ix2 p z)) (fun k => ?_) (fun k f => ?_) (fun f => ?_)
  · show V c main_arg0 (((cfg0.win 0).blk t).view.emb (ix2 p k)) = V c main_arg0 (ix2 (((cfg0.win 6).blk t).view.emb (ix2 p z) 0) k)
    refine congrArg _ (funext fun a => Fin.ext ?_)
    match a with
    | ⟨0, _⟩ => show win0_0.index t (0 : Fin 2) * 1024 + 1 * p.val = win0_6.index t (0 : Fin 2) * 1024 + 1 * p.val; omega
    | ⟨1, _⟩ => show win0_0.index t (1 : Fin 2) * 512 + 1 * k.val = k.val; omega
  · show V c main_arg1 (((cfg0.win 1).blk t).view.emb (ix2 k f)) = V c main_arg1 (ix2 k f)
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * f.val = f.val; omega
  · show V c main_v1 (((cfg0.win 3).blk t).view.emb (ix2 f (0 : Fin 1))) = V c main_v1 (ix2 f (0 : Fin 1))
    refine congrArg _ (funext fun a => Fin.ext ?_)
    match a with
    | ⟨0, _⟩ => show win0_3.index t (0 : Fin 2) * 256 + 1 * f.val = f.val; omega
    | ⟨1, _⟩ => show win0_3.index t (1 : Fin 2) * 1 + 1 * 0 = 0; omega

theorem mem_blk_dst (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

theorem cover_dst (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨e00, e01, e10, e11, e20, e21, e30, e31, e40, e41, e50, e51, e60, e61⟩ := index_facts t
  refine ⟨t, flush0_6 t, ?_⟩
  rw [mem_blk_dst]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-- The second score column after the call: every node's hidden features against \`a₂\`. -/
theorem arr0_6 (c : Dev nD) :
    (R0.dat0 (F := Ideal) V c).arrAt 6 cfg0.N = fun j => Cert.Gat.score (V c main_arg0) (V c main_arg1) (V c main_v1) (j 0) :=
  (R0.dat0 V c).arrAt_eq_of_cover 6 _ (fun t _ => flushed_dst V c t) cover_dst

end Cert.KernelIdeal.R0V

end
-- ==== Proof.Bridge.lean ====
/-
  From the contents of the buffers at the boundaries of the entry function to the specification's arrays.

  The entry function slices the attention vector into its two halves, runs the first kernel call (which leaves the
  hidden features and the two score columns), recasts the destination scores' column as a row, and runs the second
  kernel call.  Read at the second call's entry:

    * the adjacency matrix is the argument, untouched;
    * the hidden-feature array is x · W of the arguments;
    * the source column is every node's score against the first half of the attention vector (rows 0 … 255);
    * the destination row is every node's score against the second half (rows 256 … 511): a column [8192, 1] recast
      as a row [1, 8192] keeps its entries in order, so entry (0, j) of the row is entry (j, 0) of the column.

  So what the second call leaves in the result array, a row accumulated blockwise from its four entry arrays, is the
  row accumulated blockwise from the argument arrays.
-/
import proofs.«164384_j57698590654935_2_alg».proof.Proof.Whole
import proofs.«164384_j57698590654935_2_alg».proof.Proof.Region0Value
import proofs.«164384_j57698590654935_2_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-! ## The first call's entry: the arguments, and the two halves of the attention vector -/

theorem first_arg0 : Whole.V1 (F := Ideal) m ρ c main_arg0 = m ((c : Thread nD τ).loc main_arg0) :=
  (Whole.W1_keeps m ρ c main_arg0 (by decide)).trans rfl
theorem first_arg1 : Whole.V1 (F := Ideal) m ρ c main_arg1 = m ((c : Thread nD τ).loc main_arg1) :=
  (Whole.W1_keeps m ρ c main_arg1 (by decide)).trans rfl

/-- The first slice is the first half of the attention vector. -/
theorem first_lo : (Whole.V1 (F := Ideal) m ρ c main_v0 : S256x1.Idx → EReal)
    = Cert.Gat.aLo (m ((c : Thread nD τ).loc main_arg2)) := by
  have e : (Whole.V1 (F := Ideal) m ρ c main_v0 : S256x1.Idx → EReal)
      = extractStridedSlice S256x1 ![0, 0] (m ((c : Thread nD τ).loc main_arg2)) slices_S512x1_S256x1_0_0 := by
    dsimp only [Whole.V1, Whole.W1, Gen.hostOps0]; after_results
  rw [e]
  funext j
  obtain ⟨f, z, rfl⟩ : ∃ (f : Fin 256) (z : Fin 1), j = ix2 f z := ⟨j 0, j 1, eq_ix2 j⟩
  have hz := z.isLt
  exact extractStridedSlice_apply ![0, 0] _ slices_S512x1_S256x1_0_0 (ix2 f z) (ix2 (Cert.Gat.lo f) (0 : Fin 1))
    (fun a => match a with
      | ⟨0, _⟩ => by show f.val = 0 + f.val; omega
      | ⟨1, _⟩ => by show 0 = 0 + z.val; omega)

/-- The second slice is the second half of the attention vector. -/
theorem first_hi : (Whole.V1 (F := Ideal) m ρ c main_v1 : S256x1.Idx → EReal)
    = Cert.Gat.aHi (m ((c : Thread nD τ).loc main_arg2)) := by
  have e : (Whole.V1 (F := Ideal) m ρ c main_v1 : S256x1.Idx → EReal)
      = extractStridedSlice S256x1 ![256, 0] (m ((c : Thread nD τ).loc main_arg2)) slices_S512x1_S256x1_256_0 := by
    dsimp only [Whole.V1, Whole.W1, Gen.hostOps0]; after_results
  rw [e]
  funext j
  obtain ⟨f, z, rfl⟩ : ∃ (f : Fin 256) (z : Fin 1), j = ix2 f z := ⟨j 0, j 1, eq_ix2 j⟩
  have hz := z.isLt
  exact extractStridedSlice_apply ![256, 0] _ slices_S512x1_S256x1_256_0 (ix2 f z) (ix2 (Cert.Gat.hi f) (0 : Fin 1))
    (fun a => match a with
      | ⟨0, _⟩ => by show 256 + f.val = 256 + f.val; omega
      | ⟨1, _⟩ => by show 0 = 0 + z.val; omega)

/-! ## What the first call leaves -/

/-- The hidden features. -/
theorem left_hid : Whole.W2 (F := Ideal) m ρ c (Proc.devRef .tc main_v2_0)
    = Cert.Gat.hidArr (m ((c : Thread nD τ).loc main_arg0)) (m ((c : Thread nD τ).loc main_arg1)) := by
  have h : Whole.W2 (F := Ideal) m ρ c (Proc.devRef .tc main_v2_0) = (R0.dat0 (Whole.V1 m ρ) c).arrAt 4 cfg0.N :=
    Whole.W2_arr m ρ c 4
  rw [h, R0V.arr0_4 (Whole.V1 m ρ) c, first_arg0, first_arg1]

/-- The source scores' column. -/
theorem left_src : Whole.W2 (F := Ideal) m ρ c (Proc.devRef .tc main_v2_1)
    = Cert.Gat.srcCol (m ((c : Thread nD τ).loc main_arg0)) (m ((c : Thread nD τ).loc main_arg1))
        (m ((c : Thread nD τ).loc main_arg2)) := by
  have h : Whole.W2 (F := Ideal) m ρ c (Proc.devRef .tc main_v2_1) = (R0.dat0 (Whole.V1 m ρ) c).arrAt 5 cfg0.N :=
    Whole.W2_arr m ρ c 5
  rw [h, R0V.arr0_5 (Whole.V1 m ρ) c, first_arg0, first_arg1, first_lo]
  rfl

/-- The destination scores' column. -/
theorem left_dst : Whole.W2 (F := Ideal) m ρ c (Proc.devRef .tc main_v2_2)
    = fun j => Cert.Gat.dst (m ((c : Thread nD τ).loc main_arg0)) (m ((c : Thread nD τ).loc main_arg1))
        (m ((c : Thread nD τ).loc main_arg2)) (j 0) := by
  have h : Whole.W2 (F := Ideal) m ρ c (Proc.devRef .tc main_v2_2) = (R0.dat0 (Whole.V1 m ρ) c).arrAt 6 cfg0.N :=
    Whole.W2_arr m ρ c 6
  rw [h, R0V.arr0_6 (Whole.V1 m ρ) c, first_arg0, first_arg1, first_hi]
  rfl

/-! ## The second call's entry -/

/-- The adjacency matrix is the argument. -/
theorem entry_adj : Whole.V3 (F := Ideal) m ρ c main_arg3 = m ((c : Thread nD τ).loc main_arg3) :=
  calc Whole.W3 m ρ c (Proc.devRef .tc main_arg3)
    _ = Whole.W2 m ρ c (Proc.devRef .tc main_arg3) := Whole.W3_keeps m ρ c main_arg3 (by decide)
    _ = Whole.W1 m ρ c (Proc.devRef .tc main_arg3) := Whole.W2_of_ne m ρ c main_arg3 (by decide)
    _ = Whole.W0 m ρ c (Proc.devRef .tc main_arg3) := Whole.W1_keeps m ρ c main_arg3 (by decide)
    _ = m ((c : Thread nD τ).loc main_arg3) := rfl

/-- The hidden-feature array is x · W of the arguments. -/
theorem entry_hid : Whole.V3 (F := Ideal) m ρ c main_v2_0
    = Cert.Gat.hidArr (m ((c : Thread nD τ).loc main_arg0)) (m ((c : Thread nD τ).loc main_arg1)) :=
  (Whole.W3_keeps m ρ c main_v2_0 (by decide)).trans (left_hid m ρ c)

/-- The source column is the scores against the first half of the attention vector. -/
theorem entry_src : Whole.V3 (F := Ideal) m ρ c main_v2_1
    = Cert.Gat.srcCol (m ((c : Thread nD τ).loc main_arg0)) (m ((c : Thread nD τ).loc main_arg1))
        (m ((c : Thread nD τ).loc main_arg2)) :=
  (Whole.W3_keeps m ρ c main_v2_1 (by decide)).trans (left_src m ρ c)

/-- The destination row is the destination scores' column recast: entry (0, j) of the row is entry (j, 0) of the column. -/
theorem entry_dst : Whole.V3 (F := Ideal) m ρ c main_v3
    = Cert.Gat.dstRow (m ((c : Thread nD τ).loc main_arg0)) (m ((c : Thread nD τ).loc main_arg1))
        (m ((c : Thread nD τ).loc main_arg2)) := by
  have e : (Whole.V3 (F := Ideal) m ρ c main_v3 : S1x8192.Idx → EReal)
      = shapeCast S1x8192 (Whole.W2 (F := Ideal) m ρ c (Proc.devRef .tc main_v2_2) : S8192x1.Idx → EReal)
          shapeCasts_S8192x1_S1x8192 := by
    dsimp only [Whole.V3, Whole.W3, Gen.hostOps1]; after_results; rfl
  rw [e, left_dst]
  funext j
  obtain ⟨z, q, rfl⟩ : ∃ (z : Fin 1) (q : Fin 8192), j = ix2 z q := ⟨j 0, j 1, eq_ix2 j⟩
  have hz := z.isLt
  refine (shapeCast_apply _ shapeCasts_S8192x1_S1x8192 (ix2 z q) (ix2 q (0 : Fin 1)) ?_).trans rfl
  rw [Shape.rowMajor_val_two, Shape.rowMajor_val_two]
  show q.val * 1 + 0 = z.val * 8192 + q.val
  omega

/-! ## The result -/

/-- What the second call leaves in the result array is the row accumulated blockwise from the argument arrays. -/
theorem out_eq
    (h4 : ∀ (V : (c : Dev nD) → (b : Ref sig .tc) → Buf (Elt Ideal) ((c : Thread nD τ).loc b)) (c : Dev nD),
      (R1.dat1 (F := Ideal) V c).arrAt 4 cfg1.N
        = fun j => Cert.Gat.accG (V c main_arg3) (V c main_v2_0) (V c main_v2_1) (V c main_v3) (j 0) (j 1) 16 (le_refl 16)) :
    Whole.W4 (F := Ideal) m ρ c (Proc.devRef .tc main_v4)
      = fun j => Cert.Gat.accUpTo (m ((c : Thread nD τ).loc main_arg0)) (m ((c : Thread nD τ).loc main_arg1))
          (m ((c : Thread nD τ).loc main_arg2)) (m ((c : Thread nD τ).loc main_arg3)) (j 0) (j 1) 16 (le_refl 16) := by
  have h : Whole.W4 (F := Ideal) m ρ c (Proc.devRef .tc main_v4) = (R1.dat1 (Whole.V3 m ρ) c).arrAt 4 cfg1.N :=
    Whole.W4_arr m ρ c 4
  rw [h, h4 (Whole.V3 m ρ) c, entry_adj, entry_hid, entry_src, entry_dst]
  rfl

end Cert.KernelIdeal.Bridge

end
-- ==== Proof.Region1Value.lean ====
/-
  What the second kernel call (the aggregation) leaves in its output array, as a function of the arrays it reads.

  The grid is 4 × 16: point \`t = 16·i + j\` works on rows \`2048·i …\` against the \`j\`-th block of 512 columns.  At every
  point the body adds to its accumulator the block's edge part \`Σ (attention · mask) · h\` and then the constant times the
  block's non-edge part \`Σ (1 − mask) · h\`; the accumulator starts from zero at \`j = 0\` and is copied out at \`j = 15\`.

  * \`accStep\` — one point's effect on the accumulator as ONE function of the four input blocks and the accumulator's
    contents before; the three control cases of the body all leave \`accStep\` of what they found (the first case finds
    the zero fill).
  * `accStep_at` — the step at an entry, at the ideal values: the accumulator plus the two sums over the block's columns.
  * `acc_invariant` — after the point at position `16·i + j` the accumulator's entry `(r, f)` is row `2048·i + r` of the
    specification accumulated over its first `j + 1` blocks of columns (induction on the position).
  * `arr1_4` — the points of a last block of columns write back their blocks of the fully accumulated rows, and those
    4 blocks cover the array.
-/
import proofs.«164384_j57698590654935_2_alg».proof.Proof.Region1
import proofs.«164384_j57698590654935_2_alg».proof.Proof.Spec
import proofs.«164384_j57698590654935_2_alg».proof.Proof.LibRowOps
import Idealize.ShloMosaic.Lib.Pipeline.Value
import Idealize.ShloMosaic.Lib.ValueLayout

set_option maxRecDepth 16384

noncomputable section

namespace Cert.KernelIdeal.R1V

open Idealize.ShloMosaic Idealize.ShloMosaic.TcCoe Idealize.ShloMosaic.Tactic Idealize.ShloMosaic.ValueIdx
open Idealize.SL.Sem
open Cert.KernelIdeal.Gen Cert.KernelIdeal.R1

theorem zeros : (![0, 0] : Fin 2 → Nat) = fun _ => 0 := funext fun a => by fin_cases a <;> rfl

/-! ## One point's effect on the accumulator -/

section Step

variable {F : FTy → Type} [FloatOps F]

/-- The accumulator after a point, from the four input blocks and the accumulator before: the edge part is added
    first, then the constant times the non-edge part. -/
def accStep (x0 : Vec F S2048x512 .i32) (x1 : Vec F S2048x1 .bf16) (x2 : Vec F S1x512 .bf16) (x3 : Vec F S512x256 .bf16) (s : Vec F S2048x256 .f32) : Vec F S2048x256 .f32 :=
  k1_pay1 (k1_pay6 x0 x3 (k1_pay5 x0 x1 x2 x3 s))

/-- At an inner block of columns the accumulator ends at \`accStep\` of what it held. -/
theorem accInner_eq (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : ¬isLast i) (x0 : Vec F S2048x512 .i32) (x1 : Vec F S2048x1 .bf16) (x2 : Vec F S1x512 .bf16) (x3 : Vec F S512x256 .bf16) (xs : Vec F S2048x256 .f32) :
    accInner c i arg2 harg2 arg3 harg3 arg4 harg4 arg5 harg5 arg6 harg6 arg7 harg7 hc0 hc1 x0 x1 x2 x3 xs = accStep x0 x1 x2 x3 xs := by
  unfold accInner
  rw [View.read_writes_junk_eq_canon]
  unfold runInner; dsimp only
  sl_unfold_run_names
  simp only [View.canon_cons_unit_zero (S := S2048x256) zeros, View.canon_unit_zero (S := S2048x256) zeros, View.readCov_cons_toLoadRect, View.readAt_eq_ld,
    harg2.read_unread, harg3.read_unread, harg4.read_unread, harg5.read_unread, harg7.read_unread,
    View.ld_unit_zero (S := S2048x512) zeros, View.ld_unit_zero (S := S2048x1) zeros, View.ld_unit_zero (S := S1x512) zeros,
    View.ld_unit_zero (S := S512x256) zeros, View.ld_unit_zero (S := S2048x256) zeros]
  rfl

/-- At the first block of columns it ends at \`accStep\` of the zero fill, whatever it held. -/
theorem accFirst_eq (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : isFirst i) (hc1 : ¬isLast i) (x0 : Vec F S2048x512 .i32) (x1 : Vec F S2048x1 .bf16) (x2 : Vec F S1x512 .bf16) (x3 : Vec F S512x256 .bf16) :
    accFirst c i arg2 harg2 arg3 harg3 arg4 harg4 arg5 harg5 arg6 harg6 arg7 harg7 hc0 hc1 x0 x1 x2 x3 = accStep x0 x1 x2 x3 k1_pay2 := by
  unfold accFirst
  rw [View.read_writes_junk_eq_canon]
  unfold runFirst; dsimp only
  sl_unfold_run_names
  simp only [View.canon_cons_unit_zero (S := S2048x256) zeros, View.canon_unit_zero (S := S2048x256) zeros, View.readCov_cons_toLoadRect, View.readAt_eq_ld,
    harg2.read_unread, harg3.read_unread, harg4.read_unread, harg5.read_unread,
    View.ld_unit_zero (S := S2048x512) zeros, View.ld_unit_zero (S := S2048x1) zeros, View.ld_unit_zero (S := S1x512) zeros,
    View.ld_unit_zero (S := S512x256) zeros, View.ld_unit_zero (S := S2048x256) zeros]
  rfl

/-- At the last block of columns it ends at \`accStep\` of what it held, -/
theorem accLast_eq (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) :
    accLast c i arg2 harg2 arg3 harg3 arg4 harg4 arg5 harg5 arg6 harg6 arg7 harg7 hc0 hc1 x0 x1 x2 x3 xs = accStep x0 x1 x2 x3 xs := by
  unfold accLast
  rw [View.read_writes_junk_eq_canon]
  unfold runLast; dsimp only
  sl_unfold_run_names
  simp only [View.canon_cons_unit_zero (S := S2048x256) zeros, View.canon_unit_zero (S := S2048x256) zeros, View.readCov_cons_toLoadRect, View.readAt_eq_ld,
    harg2.read_unread, harg3.read_unread, harg4.read_unread, harg5.read_unread, harg7.read_unread,
    View.ld_unit_zero (S := S2048x512) zeros, View.ld_unit_zero (S := S2048x1) zeros, View.ld_unit_zero (S := S1x512) zeros,
    View.ld_unit_zero (S := S512x256) zeros, View.ld_unit_zero (S := S2048x256) zeros]
  rfl

/-- and the output block's buffer receives the same value: the accumulator read back after its last store. -/
theorem outLast_eq (c : Dev nD) (i : grid1.Coords) (arg2 : Memref sig .tc .vmem S2048x512 .i32) (harg2 : arg2.IsWhole) (arg3 : Memref sig .tc .vmem S2048x1 .bf16) (harg3 : arg3.IsWhole) (arg4 : Memref sig .tc .vmem S1x512 .bf16) (harg4 : arg4.IsWhole) (arg5 : Memref sig .tc .vmem S512x256 .bf16) (harg5 : arg5.IsWhole) (arg6 : Memref sig .tc .vmem S2048x256 .f32) (harg6 : arg6.IsWhole) (arg7 : Memref sig .tc .vmem S2048x256 .f32) (harg7 : arg7.IsWhole) (hc0 : ¬isFirst i) (hc1 : isLast i) (x0 : Vec F S2048x512 .i32) (x1 : Vec F S2048x1 .bf16) (x2 : Vec F S1x512 .bf16) (x3 : Vec F S512x256 .bf16) (xs : Vec F S2048x256 .f32) :
    outLast c i arg2 harg2 arg3 harg3 arg4 harg4 arg5 harg5 arg6 harg6 arg7 harg7 hc0 hc1 x0 x1 x2 x3 xs = accStep x0 x1 x2 x3 xs := by
  unfold outLast
  rw [View.read_writes_junk_eq_canon]
  unfold runLast; dsimp only
  sl_unfold_run_names
  simp only [View.canon_cons_unit_zero (S := S2048x256) zeros, View.canon_unit_zero (S := S2048x256) zeros, View.readCov_cons_toLoadRect, View.readAt_eq_ld,
    harg2.read_unread, harg3.read_unread, harg4.read_unread, harg5.read_unread, harg7.read_unread,
    View.ld_unit_zero (S := S2048x512) zeros, View.ld_unit_zero (S := S2048x1) zeros, View.ld_unit_zero (S := S1x512) zeros,
    View.ld_unit_zero (S := S512x256) zeros, View.ld_unit_zero (S := S2048x256) zeros]
  rfl

end Step

/-! ## The step at an entry, at the ideal values -/

/-- In the block's two matrix products the left operand's row is the result's row, -/
theorem mh_lhs_row (j : S2048x256.Idx) (q : dot_S2048x512_S512x256_S2048x256_1_0_0_1_n_n.contr.Idx) :
    (dot_S2048x512_S512x256_S2048x256_1_0_0_1_n_n.lhsIdx j q 0).val = (j 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
/-- its column the contracted coordinate, -/
theorem mh_lhs_col (j : S2048x256.Idx) (q : dot_S2048x512_S512x256_S2048x256_1_0_0_1_n_n.contr.Idx) :
    (dot_S2048x512_S512x256_S2048x256_1_0_0_1_n_n.lhsIdx j q 1).val = (q ⟨0, by decide⟩).val :=
  dot_S2048x512_S512x256_S2048x256_1_0_0_1_n_n.lhsIdx_val_of_single rfl j q
/-- the right operand's row the contracted coordinate, -/
theorem mh_rhs_row (j : S2048x256.Idx) (q : dot_S2048x512_S512x256_S2048x256_1_0_0_1_n_n.contr.Idx) :
    (dot_S2048x512_S512x256_S2048x256_1_0_0_1_n_n.rhsIdx j q 0).val = (q ⟨0, by decide⟩).val :=
  dot_S2048x512_S512x256_S2048x256_1_0_0_1_n_n.rhsIdx_val_of_single rfl j q
/-- and its column the result's column. -/
theorem mh_rhs_col (j : S2048x256.Idx) (q : dot_S2048x512_S512x256_S2048x256_1_0_0_1_n_n.contr.Idx) :
    (dot_S2048x512_S512x256_S2048x256_1_0_0_1_n_n.rhsIdx j q 1).val = (j 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- An \`[a, 1]\` array broadcast to \`[a, b]\` reads, at \`(p, c)\`, the operand's one column at \`p\`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask of a block at an entry: the signed reading of the one-bit comparison \`adj > 0\` widened to 32 bits
    (1 on an edge, 0 elsewhere). -/
def maskAt (x0 : Vec Ideal S2048x512 .i32) (r : Fin 2048) (q : Fin 512) : EReal :=
  ((((IntOp.cmpi .sgt (x0 (ix2 r q)) 0#32).setWidth 32).toInt : ℝ) : EReal)

theorem mask_at (x0 : Vec Ideal S2048x512 .i32) (r : Fin 2048) (q : Fin 512) :
    k1_pay3 (F := Ideal) x0 (ix2 r q) = maskAt x0 r q := rfl

/-- The zero fill at an entry. -/
theorem fill_at (r : Fin 2048) (f : Fin 256) : k1_pay2 (F := Ideal) (ix2 r f) = Cert.Gat.zero32 := by
  unfold k1_pay2
  rw [shapeCast_self]
  rfl

/-- The edge part: the accumulator plus, over the block's 512 columns, attention times mask times hidden feature. -/
theorem edges_at (x0 : Vec Ideal S2048x512 .i32) (x1 : FVec Ideal S2048x1 .bf16) (x2 : FVec Ideal S1x512 .bf16) (x3 : FVec Ideal S512x256 .bf16)
    (s : FVec Ideal S2048x256 .f32) (r : Fin 2048) (f : Fin 256) :
    k1_pay5 (F := Ideal) x0 x1 x2 x3 s (ix2 r f)
      = s (ix2 r f) + ∑ q : Fin 512, ((x1 (ix2 r (0 : Fin 1)) + x2 (ix2 (0 : Fin 1) q)) * maskAt x0 r q) * x3 (ix2 q f) := by
  unfold k1_pay5
  rw [shapeCast_self, addf_apply]
  refine congrArg (s (ix2 r f) + ·) ?_
  refine (Cert.LibRowOps.matmul_zero_apply dot_S2048x512_S512x256_S2048x256_1_0_0_1_n_n none _ _ rfl rfl mh_lhs_row mh_lhs_col mh_rhs_row mh_rhs_col r f).trans ?_
  refine Finset.sum_congr rfl fun q _ => ?_
  rw [mulf_apply, addf_apply, broadcastTo_a1_ab_apply, broadcastTo_1b_ab_apply, shapeCast_self, shapeCast_self, mask_at]
  unfold k1_pay4
  rw [shapeCast_self]

/-- The non-edge part: the accumulator plus the constant times, over the block's columns, (1 − mask) times hidden feature. -/
theorem rest_at (x0 : Vec Ideal S2048x512 .i32) (x3 : FVec Ideal S512x256 .bf16) (s : FVec Ideal S2048x256 .f32) (r : Fin 2048) (f : Fin 256) :
    k1_pay6 (F := Ideal) x0 x3 s (ix2 r f)
      = s (ix2 r f) + Cert.Gat.negBig * ∑ q : Fin 512, (Cert.Gat.one16 - maskAt x0 r q) * x3 (ix2 q f) := by
  unfold k1_pay6
  rw [addf_apply, mulf_apply, broadcast_apply]
  refine congrArg (s (ix2 r f) + ·) ?_
  refine congrArg (Cert.Gat.negBig * ·) ?_
  refine (Cert.LibRowOps.matmul_zero_apply dot_S2048x512_S512x256_S2048x256_1_0_0_1_n_n none _ _ rfl rfl mh_lhs_row mh_lhs_col mh_rhs_row mh_rhs_col r f).trans ?_
  refine Finset.sum_congr rfl fun q _ => ?_
  rw [subf_apply, broadcast_apply, mask_at]
  unfold k1_pay4
  rw [shapeCast_self]
  rfl

/-- One point's effect on the accumulator at an entry. -/
theorem accStep_at (x0 : Vec Ideal S2048x512 .i32) (x1 : FVec Ideal S2048x1 .bf16) (x2 : FVec Ideal S1x512 .bf16) (x3 : FVec Ideal S512x256 .bf16)
    (s : FVec Ideal S2048x256 .f32) (r : Fin 2048) (f : Fin 256) :
    accStep (F := Ideal) x0 x1 x2 x3 s (ix2 r f)
      = (s (ix2 r f) + ∑ q : Fin 512, ((x1 (ix2 r (0 : Fin 1)) + x2 (ix2 (0 : Fin 1) q)) * maskAt x0 r q) * x3 (ix2 q f))
        + Cert.Gat.negBig * ∑ q : Fin 512, (Cert.Gat.one16 - maskAt x0 r q) * x3 (ix2 q f) := by
  unfold accStep k1_pay1
  rw [shapeCast_self, rest_at, edges_at]

/-! ## One step against the specification, entry by entry

Stated over any block contents and any array contents: when the blocks' entries are the arrays' entries at row \`i\` and
the \`b\`-th block of 512 columns, and the accumulator's entry before the point is \`prev\`, the step is the
specification's block step from \`prev\`. -/

theorem col_val (b : Fin 16) (q : Fin 512) : (Cert.Gat.col b q).val = 512 * b.val + q.val := rfl

theorem step_point (adj : S8192x8192.Idx → BitVec 32) (H : S8192x256.Idx → EReal) (s1 : S8192x1.Idx → EReal) (s2 : S1x8192.Idx → EReal)
    (x0 : Vec Ideal S2048x512 .i32) (x1 : FVec Ideal S2048x1 .bf16) (x2 : FVec Ideal S1x512 .bf16) (x3 : FVec Ideal S512x256 .bf16)
    (s : FVec Ideal S2048x256 .f32) (i : Fin 8192) (b : Fin 16) (r : Fin 2048) (f : Fin 256) (prev : EReal)
    (h0 : ∀ q : Fin 512, x0 (ix2 r q) = adj (ix2 i (Cert.Gat.col b q)))
    (h1 : x1 (ix2 r (0 : Fin 1)) = s1 (ix2 i (0 : Fin 1)))
    (h2 : ∀ q : Fin 512, x2 (ix2 (0 : Fin 1) q) = s2 (ix2 (0 : Fin 1) (Cert.Gat.col b q)))
    (h3 : ∀ q : Fin 512, x3 (ix2 q f) = H (ix2 (Cert.Gat.col b q) f))
    (hs : s (ix2 r f) = prev) :
    accStep (F := Ideal) x0 x1 x2 x3 s (ix2 r f) = Cert.Gat.addBlockG adj H s1 s2 i f b prev := by
  rw [accStep_at, hs, h1]
  unfold Cert.Gat.addBlockG
  have hm : ∀ q : Fin 512, maskAt x0 r q = Cert.Gat.mask adj i (Cert.Gat.col b q) := fun q => by
    unfold maskAt Cert.Gat.mask Cert.Gat.edgeBit; rw [h0]
  refine congrArg₂ (· + ·) (congrArg (prev + ·) (Finset.sum_congr rfl fun q _ => ?_))
    (congrArg (Cert.Gat.negBig * ·) (Finset.sum_congr rfl fun q _ => ?_))
  · rw [hm, h2, h3]
  · rw [hm, h3]

/-- The accumulated row does not depend on how its block count is spelt, -/
theorem accG_congr (adj : S8192x8192.Idx → BitVec 32) (H : S8192x256.Idx → EReal) (s1 : S8192x1.Idx → EReal) (s2 : S1x8192.Idx → EReal)
    (i : Fin 8192) (f : Fin 256) {n n' : ℕ} (e : n = n') (h : n ≤ 16) (h' : n' ≤ 16) :
    Cert.Gat.accG adj H s1 s2 i f n h = Cert.Gat.accG adj H s1 s2 i f n' h' := by
  subst e; rfl
/-- starts at zero, -/
theorem accG_zero (adj : S8192x8192.Idx → BitVec 32) (H : S8192x256.Idx → EReal) (s1 : S8192x1.Idx → EReal) (s2 : S1x8192.Idx → EReal)
    (i : Fin 8192) (f : Fin 256) {n : ℕ} (e : n = 0) (h : n ≤ 16) :
    Cert.Gat.accG adj H s1 s2 i f n h = Cert.Gat.zero32 := by
  subst e; rfl
/-- and takes one block step per block of columns. -/
theorem accG_succ (adj : S8192x8192.Idx → BitVec 32) (H : S8192x256.Idx → EReal) (s1 : S8192x1.Idx → EReal) (s2 : S1x8192.Idx → EReal)
    (i : Fin 8192) (f : Fin 256) (b : Fin 16) :
    Cert.Gat.accG adj H s1 s2 i f (b.val + 1) (Nat.succ_le_of_lt b.isLt)
      = Cert.Gat.addBlockG adj H s1 s2 i f b (Cert.Gat.accG adj H s1 s2 i f b.val (Nat.le_of_lt b.isLt)) := rfl

/-! ## The block indices over the grid -/

/-- At grid point \`t\` the adjacency block is at block row \`t / 16\` and block column \`t % 16\`; the source scores and
    the result follow the block row, the destination scores and the hidden features the block column. -/
theorem index_facts1 : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = 0
    ∧ win1_2.index t (0 : Fin 2) = 0 ∧ win1_2.index t (1 : Fin 2) = t.val % 16
    ∧ win1_3.index t (0 : Fin 2) = t.val % 16 ∧ win1_3.index t (1 : Fin 2) = 0
    ∧ win1_4.index t (0 : Fin 2) = t.val / 16 ∧ win1_4.index t (1 : Fin 2) = 0 :=
  (by decide +kernel : ∀ t : Fin grid1.N, _)

-- the core's buffer contents when the call is entered
variable (V : (c : Dev nD) → (b : Ref sig .tc) → Buf (Elt Ideal) ((c : Thread nD τ).loc b))

/-! ## The blocks read where their rectangles say -/

theorem adj_blk (c : Dev nD) (t : Fin cfg1.N) (r : Fin 2048) (q : Fin 512) (i j : Fin 8192)
    (hi : i.val = 2048 * (t.val / 16) + r.val) (hj : j.val = 512 * (t.val % 16) + q.val) :
    R1.blk V c 0 t (ix2 r q) = V c main_arg3 (ix2 i j) := by
  obtain ⟨e00, e01, e10, e11, e20, e21, e30, e31, e40, e41⟩ := index_facts1 t
  show V c main_arg3 (((cfg1.win 0).blk t).view.emb (ix2 r q)) = V c main_arg3 (ix2 i j)
  refine congrArg _ (funext fun a => Fin.ext ?_)
  match a with
  | ⟨0, _⟩ => show win1_0.index t (0 : Fin 2) * 2048 + 1 * r.val = i.val; omega
  | ⟨1, _⟩ => show win1_0.index t (1 : Fin 2) * 512 + 1 * q.val = j.val; omega

theorem src_blk (c : Dev nD) (t : Fin cfg1.N) (r : Fin 2048) (i : Fin 8192)
    (hi : i.val = 2048 * (t.val / 16) + r.val) :
    R1.blk V c 1 t (ix2 r (0 : Fin 1)) = V c main_v2_1 (ix2 i (0 : Fin 1)) := by
  obtain ⟨e00, e01, e10, e11, e20, e21, e30, e31, e40, e41⟩ := index_facts1 t
  show V c main_v2_1 (((cfg1.win 1).blk t).view.emb (ix2 r (0 : Fin 1))) = V c main_v2_1 (ix2 i (0 : Fin 1))
  refine congrArg _ (funext fun a => Fin.ext ?_)
  match a with
  | ⟨0, _⟩ => show win1_1.index t (0 : Fin 2) * 2048 + 1 * r.val = i.val; omega
  | ⟨1, _⟩ => show win1_1.index t (1 : Fin 2) * 1 + 1 * 0 = 0; omega

theorem dst_blk (c : Dev nD) (t : Fin cfg1.N) (q : Fin 512) (j : Fin 8192)
    (hj : j.val = 512 * (t.val % 16) + q.val) :
    R1.blk V c 2 t (ix2 (0 : Fin 1) q) = V c main_v3 (ix2 (0 : Fin 1) j) := by
  obtain ⟨e00, e01, e10, e11, e20, e21, e30, e31, e40, e41⟩ := index_facts1 t
  show V c main_v3 (((cfg1.win 2).blk t).view.emb (ix2 (0 : Fin 1) q)) = V c main_v3 (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = j.val; omega

theorem hid_blk (c : Dev nD) (t : Fin cfg1.N) (q : Fin 512) (f : Fin 256) (j : Fin 8192)
    (hj : j.val = 512 * (t.val % 16) + q.val) :
    R1.blk V c 3 t (ix2 q f) = V c main_v2_0 (ix2 j f) := by
  obtain ⟨e00, e01, e10, e11, e20, e21, e30, e31, e40, e41⟩ := index_facts1 t
  show V c main_v2_0 (((cfg1.win 3).blk t).view.emb (ix2 q f)) = V c main_v2_0 (ix2 j f)
  refine congrArg _ (funext fun a => Fin.ext ?_)
  match a with
  | ⟨0, _⟩ => show win1_3.index t (0 : Fin 2) * 512 + 1 * q.val = j.val; omega
  | ⟨1, _⟩ => show win1_3.index t (1 : Fin 2) * 256 + 1 * f.val = f.val; omega

/-- The step at grid point \`t\`, on the point's own blocks, is the specification's block step for row
    \`2048·(t/16) + r\` and block of columns \`t % 16\`. -/
theorem step_at_point (c : Dev nD) (t : Fin cfg1.N) (s : FVec Ideal S2048x256 .f32) (r : Fin 2048) (f : Fin 256)
    (i : Fin 8192) (b : Fin 16) (prev : EReal)
    (hi : i.val = 2048 * (t.val / 16) + r.val) (hb : b.val = t.val % 16) (hs : s (ix2 r f) = prev) :
    accStep (F := Ideal) (R1.blk V c 0 t) (R1.blk V c 1 t) (R1.blk V c 2 t) (R1.blk V c 3 t) s (ix2 r f)
      = Cert.Gat.addBlockG (V c main_arg3) (V c main_v2_0) (V c main_v2_1) (V c main_v3) i f b prev :=
  step_point (V c main_arg3) (V c main_v2_0) (V c main_v2_1) (V c main_v3) _ _ _ _ s i b r f prev
    (fun q => adj_blk V c t r q i (Cert.Gat.col b q) hi (by rw [col_val]; omega))
    (src_blk V c t r i hi)
    (fun q => dst_blk V c t q (Cert.Gat.col b q) (by rw [col_val]; omega))
    (fun q => hid_blk V c t q f (Cert.Gat.col b q) (by rw [col_val]; omega))
    hs

/-! ## The accumulator after every point -/

/-- After the point at position \`n = 16·i + j\` the accumulator's entry \`(r, f)\` is row \`2048·i + r\` of the specification
    accumulated over its first \`j + 1\` blocks of columns. -/
theorem acc_invariant (c : Dev nD) : ∀ (n : ℕ) (hn : n < cfg1.N) (r : Fin 2048) (f : Fin 256) (i : Fin 8192) (b : Fin 16),
    i.val = 2048 * (n / 16) + r.val → b.val = n % 16 →
    (R1.stateAt V c n hn).2 (ix2 r f)
      = Cert.Gat.accG (V c main_arg3) (V c main_v2_0) (V c main_v2_1) (V c main_v3) i f (b.val + 1) (Nat.succ_le_of_lt b.isLt) := by
  intro n
  induction n using Nat.strong_induction_on with
  | _ n ih =>
    intro hn r f i b hi hb
    have hN : cfg1.N = 64 := N_1
    have hb16 : b.val < 16 := b.isLt
    rw [accG_succ]
    by_cases e0 : n % 16 = 0
    · -- the first block of columns: the step starts from the zero fill
      have e1 : ¬ n % 16 = 15 := by omega
      refine (congrFun (congrArg Prod.snd (R1.stateAt_first V c ⟨n, hn⟩ e0 e1)) (ix2 r f)).trans ?_
      rw [accFirst_eq]
      exact step_at_point V c ⟨n, hn⟩ _ r f i b _ hi hb
        ((fill_at r f).trans (accG_zero (V c main_arg3) (V c main_v2_0) (V c main_v2_1) (V c main_v3) i f (by omega) _).symm)
    · have hprev : (R1.stateAt V c (n - 1) (Nat.lt_of_le_of_lt (Nat.sub_le _ _) hn)).2 (ix2 r f)
          = Cert.Gat.accG (V c main_arg3) (V c main_v2_0) (V c main_v2_1) (V c main_v3) i f b.val (Nat.le_of_lt b.isLt) :=
        (ih (n - 1) (by omega) (Nat.lt_of_le_of_lt (Nat.sub_le _ _) hn) r f i ⟨b.val - 1, by omega⟩ (by omega) (by show b.val - 1 = (n - 1) % 16; omega)).trans
          (accG_congr (V c main_arg3) (V c main_v2_0) (V c main_v2_1) (V c main_v3) i f (by show b.val - 1 + 1 = b.val; omega) _ _)
      by_cases e1 : n % 16 = 15
      · -- the last block of columns
        refine (congrFun (congrArg Prod.snd (R1.stateAt_last V c ⟨n, hn⟩ e0 e1)) (ix2 r f)).trans ?_
        rw [accLast_eq]
        exact step_at_point V c ⟨n, hn⟩ _ r f i b _ hi hb hprev
      · -- an inner block of columns
        refine (congrFun (congrArg Prod.snd (R1.stateAt_inner V c ⟨n, hn⟩ e0 e1)) (ix2 r f)).trans ?_
        rw [accInner_eq]
        exact step_at_point V c ⟨n, hn⟩ _ r f i b _ hi hb hprev

/-- At a last block of columns the output block's buffer holds the whole accumulated row. -/
theorem out_invariant (c : Dev nD) (t : Fin cfg1.N) (e1 : t.val % 16 = 15) (r : Fin 2048) (f : Fin 256) (i : Fin 8192) (f' : Fin 256)
    (hi : i.val = 2048 * (t.val / 16) + r.val) (hf : f'.val = f.val) :
    (R1.stateAt V c t.val t.isLt).1 (ix2 r f)
      = Cert.Gat.accG (V c main_arg3) (V c main_v2_0) (V c main_v2_1) (V c main_v3) i f' 16 (le_refl 16) := by
  obtain rfl : f' = f := Fin.ext hf
  have hN : cfg1.N = 64 := N_1
  have ht : t.val < cfg1.N := t.isLt
  have e0 : ¬ t.val % 16 = 0 := by omega
  obtain ⟨b, hb⟩ : ∃ b : Fin 16, b.val = t.val % 16 := ⟨⟨t.val % 16, by omega⟩, rfl⟩
  rw [accG_congr (V c main_arg3) (V c main_v2_0) (V c main_v2_1) (V c main_v3) i f' (show 16 = b.val + 1 by omega) (le_refl 16) (Nat.succ_le_of_lt b.isLt), accG_succ]
  refine (congrFun (congrArg Prod.fst (R1.stateAt_last V c t e0 e1)) (ix2 r f')).trans ?_
  rw [outLast_eq]
  refine step_at_point V c t _ r f' i b _ hi hb ?_
  exact (acc_invariant V c (t.val - 1) (Nat.lt_of_le_of_lt (Nat.sub_le _ _) t.isLt) r f' i ⟨b.val - 1, by omega⟩ (by omega) (by show b.val - 1 = (t.val - 1) % 16; omega)).trans
    (accG_congr (V c main_arg3) (V c main_v2_0) (V c main_v2_1) (V c main_v3) i f' (by show b.val - 1 + 1 = b.val; omega) _ _)

/-! ## The result array -/

/-- What a point of a last block of columns writes back is its block of the accumulated rows. -/
theorem flushed_out (c : Dev nD) (t : Fin cfg1.N) (e1 : t.val % 16 = 15) :
    (R1.dat1 (F := Ideal) V c).flushed 4 t
      = ((cfg1.win 4).blk t).view.read (Elt Ideal) (fun j : S8192x256.Idx => Cert.Gat.accG (V c main_arg3) (V c main_v2_0) (V c main_v2_1) (V c main_v3) (j 0) (j 1) 16 (le_refl 16)) := by
  show (cfg1.win 4).cut (grid1.coords t) ((R1.dat1 V c).after 4 t) = _
  rw [R1.after1_4]
  obtain ⟨e00, e01, e10, e11, e20, e21, e30, e31, e40, e41⟩ := index_facts1 t
  funext j
  obtain ⟨p, f, rfl⟩ : ∃ (p : Fin 2048) (f : Fin 256), j = ix2 p f := ⟨j 0, j 1, eq_ix2 j⟩
  refine out_invariant V c t e1 p f (((cfg1.win 4).blk t).view.emb (ix2 p f) 0) (((cfg1.win 4).blk t).view.emb (ix2 p f) 1) ?_ ?_
  · show win1_4.index t (0 : Fin 2) * 2048 + 1 * p.val = 2048 * (t.val / 16) + p.val; omega
  · show win1_4.index t (1 : Fin 2) * 256 + 1 * f.val = f.val; omega

/-- An entry of the result array is in point \`t\`'s block iff each coordinate is in the block's range. -/
theorem mem_blk_out (t : Fin cfg1.N) (i : S8192x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v4).slice (win1_4.rect t)).set ↔ _
  rw [View.set_slice_whole, Rect.mem_set_unit]
  exact Iff.rfl

/-- Every entry is in the block written back at the last block of columns of its block of rows. -/
theorem cover_out (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 64 := N_1
  obtain ⟨t, ht⟩ : ∃ t : Fin cfg1.N, t.val = 16 * ((i 0).val / 2048) + 15 := ⟨⟨16 * ((i 0).val / 2048) + 15, by omega⟩, rfl⟩
  obtain ⟨e00, e01, e10, e11, e20, e21, e30, e31, e40, e41⟩ := index_facts1 t
  refine ⟨t, (flush1_4 t).mpr (by omega), ?_⟩
  rw [mem_blk_out]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- The result array after the call: every row of the specification accumulated over all 16 blocks of columns. -/
theorem arr1_4 (c : Dev nD) :
    (R1.dat1 (F := Ideal) V c).arrAt 4 cfg1.N
      = fun j => Cert.Gat.accG (V c main_arg3) (V c main_v2_0) (V c main_v2_1) (V c main_v3) (j 0) (j 1) 16 (le_refl 16) :=
  (R1.dat1 V c).arrAt_eq_of_cover 4 _ (fun t ht => flushed_out V c t ((flush1_4 t).mp ht)) cover_out

end Cert.KernelIdeal.R1V

end
-- ==== Proof.lean ====
/-
  A graph-attention layer without softmax, computed by two fused kernels, against its plain reference.

  Both sides compute, for every node `i` and feature `f`,
      Σ_j  c(i, j) · h(j, f),     h = x · W,     c(i, j) = h_i · a[0:256] + h_j · a[256:512]  where adj(i, j) > 0,  else a constant N.
  The first kernel produces `h` and the two score vectors; the second walks each block of 2048 rows across sixteen blocks
  of 512 columns, adding to an accumulator first  Σ_q (c · mask) · h  and then  N · Σ_q (1 − mask) · h  for the block, and
  writes the accumulator out after the last block.  On the extended reals, with every float input a real number, the
  blockwise sum is the reference's single sum: mask is 0 or 1, so (c · mask) · h + N · ((1 − mask) · h) is the column's
  term, and the sixteen blocks of 512 columns are the 8192 columns.

  Modules: Spec (the mathematics), Region0 / Region1* (each kernel region's proof data and body obligation, generic in
  the float instance), Whole (the entry function's run over both regions, and the frame), WordRegion* / WordWhole (the
  same for the word-level program), Region0Value / Region1Value (what each region's output arrays hold, at the ideal
  instance), Bridge (the run's last contents as the specification), RefValue (the reference's result as the
  specification), Law (the two specifications agree on real inputs), Finite (the precondition makes the inputs real),
  Assemble (the claims).
-/
import proofs.«164384_j57698590654935_2_alg».proof.Proof.Assemble
import proofs.«164384_j57698590654935_2_alg».proof.Proof.Bridge
import proofs.«164384_j57698590654935_2_alg».proof.Proof.Region1Value

noncomputable section

namespace Cert.Proof

open Idealize.ShloMosaic Idealize.SL.Sem

/-- The rewriting pass changed no operation: nothing to preserve beyond the program's own text. -/
theorem preserves : Cert.preserves_Kernel_KernelIdeal := trivial

/-- The kernel program's result array after its run is the row accumulated block by block. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Whole.W4 (F := Ideal) m ρ c (Proc.devRef .tc Cert.KernelIdeal.main_v4) = Claims.outOf m c :=
  (Cert.KernelIdeal.Bridge.out_eq m ρ c Cert.KernelIdeal.R1V.arr1_4).trans rfl

theorem claim : Cert.Claim :=
  ⟨Cert.Kernel.Gen.facts, Cert.KernelIdeal.Gen.facts, Cert.ReferenceIdeal.Gen.facts, Cert.Pre_finite_inputs.Gen.facts,
    Claims.frame_word, Claims.frame_ideal, Claims.frame_ref, preserves, Claims.algebraic_of result_eq⟩

end Cert.Proof

end
